-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x64 : Shape := ⟨2, ![96, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x96 .f32) (main_arg1 : IVec S2x800000 32) (main_arg2 : FVec F S96x64 .f32) (main_arg3 : FVec F S64 .f32) (main_arg4 : FVec F S64x16 .f32) (main_arg5 : FVec F S16 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x64 .f32 := Host.absf main_arg2
  let main_cst_0 : FVec F S_ .f32 := constant S_ .f32 0x7F800000#32
  let main_v5 : FVec F S96x64 .f32 := broadcastInDim S96x64 ![] bcast_S_S96x64 main_cst_0
  let main_v6 : IVec S96x64 1 := cmpf .olt main_v4 main_v5
  let main_c_1 : IVec S_ 1 := constantI S_ 1 1#1
  let main_v7 : IVec S_ 1 := (fun x v => Host.reduce IntOp.andi x v reducesTo_S96x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S50000x96 : Shape := ⟨2, ![50000, 96]⟩
abbrev S2x800000 : Shape := ⟨2, ![2, 800000]⟩
abbrev S96x64 : Shape := ⟨2, ![96, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x96 : Shape := ⟨2, ![5000, 96]⟩
abbrev S5000x64 : Shape := ⟨2, ![5000, 64]⟩
abbrev S850000x64 : Shape := ⟨2, ![850000, 64]⟩
abbrev S1x64 : Shape := ⟨2, ![1, 64]⟩
abbrev S50000x16 : Shape := ⟨2, ![50000, 16]⟩
abbrev S5000x16 : Shape := ⟨2, ![5000, 16]⟩
abbrev S850000x16 : Shape := ⟨2, ![850000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 86
  | .vmem => 16
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x16, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x16, .f32⟩
  | .hbm, ⟨77, _⟩ => ⟨S850000x1, .f32⟩
  | .hbm, ⟨78, _⟩ => ⟨S850000x16, .f32⟩
  | .hbm, ⟨79, _⟩ => ⟨S850000x16, .f32⟩
  | .hbm, ⟨80, _⟩ => ⟨S_, .f32⟩
  | .hbm, ⟨81, _⟩ => ⟨S50000x16, .f32⟩
  | .hbm, ⟨82, _⟩ => ⟨S850000x1, .i32⟩
  | .hbm, ⟨83, _⟩ => ⟨S50000x16, .f32⟩
  | .hbm, ⟨84, _⟩ => ⟨S1x16, .f32⟩
  | .hbm, ⟨85, _⟩ => ⟨S50000x16, .f32⟩
  | .local _ .vmem, ⟨0, _⟩ => ⟨S5000x96, .f32⟩
  | .local _ .vmem, ⟨1, _⟩ => ⟨S5000x96, .f32⟩
  | .local _ .vmem, ⟨2, _⟩ => ⟨S96x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x64_S96x64_0_0 : ∀ a, (![0, 0] : Fin 2 → Nat) a + S96x64.size a ≤ S96x64.size a
  h_S96x64 : 0 < S96x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x96_S96x64_S5000x64_1_0_0_1_n_n_wf : DotDims.WF S5000x96 S96x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x16_S5000x16_1_0_0_1_n_n_wf : DotDims.WF S5000x64 S64x16 S5000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x64.size a ≤ S96x64.size a
  hwx0_1 : ∀ i : grid0.Coords, EltTy.bits .f32 = 32 ∨ (Rect.block (s := S96x64) S96x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S50000x16.size a
  hwx1_3 : ∀ i : grid1.Coords, EltTy.bits .f32 = 32 ∨ (Rect.block (s := S50000x16) S5000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S50000x16.size a
  hwx2_0 : ∀ i : grid2.Coords, EltTy.bits .f32 = 32 ∨ (Rect.block (s := S50000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S50000x16.size a
  hwx2_2 : ∀ i : grid2.Coords, EltTy.bits .f32 = 32 ∨ (Rect.block (s := S50000x16) S5000x16.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x64 : Shape := ⟨2, ![96, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S50000x64 : Shape := ⟨2, ![50000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x16 : Shape := ⟨2, ![50000, 16]⟩
abbrev S850000x16 : Shape := ⟨2, ![850000, 16]⟩
abbrev S1x16 : Shape := ⟨2, ![1, 16]⟩
abbrev S50000x1 : Shape := ⟨2, ![50000, 1]⟩

abbrev nBuf : Space → Nat
  | .hbm => 146
  | .vmem => 0
  | .smem => 0
  | _ => 0

abbrev hbmTy0_0 (i : Nat) : BufTy := match i % 128 with
  | 0 => ⟨S50000x96, .f32⟩
  | 1 => ⟨S2x800000, .i32⟩
  | 2 => ⟨S96x64, .f32⟩
  | 3 => ⟨S64, .f32⟩
  | 4 => ⟨S64x16, .f32⟩
  | 5 => ⟨S16, .f32⟩
  | 6 => ⟨S1x800000, .i32⟩
  | 7 => ⟨S800000, .i32⟩
  | 8 => ⟨S1x800000, .i32⟩
  | 9 => ⟨S800000, .i32⟩
  | 10 => ⟨S50000x64, .f32⟩
  | 11 => ⟨S50000, .i32⟩
  | 12 => ⟨S850000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x64, .f32⟩
  | 59 => ⟨S850000x1, .f32⟩
  | 60 => ⟨S850000x64, .f32⟩
  | 61 => ⟨S850000x64, .f32⟩
  | 62 => ⟨S_, .f32⟩
  | 63 => ⟨S50000x64, .f32⟩
  | 64 => ⟨S850000x1, .i32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x16, .f32⟩
  | 73 => ⟨S50000, .i32⟩
  | 74 => ⟨S850000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S_, .f32⟩
  | 86 => ⟨S50000, .f32⟩
  | 87 => ⟨S50000, .f32⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x16, .f32⟩
  | 121 => ⟨S850000x1, .f32⟩
  | 122 => ⟨S850000x16, .f32⟩
  | 123 => ⟨S850000x16, .f32⟩
  | 124 => ⟨S_, .f32⟩
  | 125 => ⟨S50000x16, .f32⟩
  | 126 => ⟨S850000x1, .i32⟩
  | 127 => ⟨S50000x16, .f32⟩
  | _ => ⟨S50000x96, .f32⟩

abbrev hbmTy0_1 (i : Nat) : BufTy := match i % 128 with
  | 0 => ⟨S1x16, .f32⟩
  | 1 => ⟨S50000x16, .f32⟩
  | 2 => ⟨S50000x16, .f32⟩
  | 3 => ⟨S_, .f32⟩
  | 4 => ⟨S50000, .f32⟩
  | 5 => ⟨S_, .f32⟩
  | 6 => ⟨S50000, .f32⟩
  | 7 => ⟨S50000, .f32⟩
  | 8 => ⟨S50000x1, .f32⟩
  | 9 => ⟨S50000x16, .f32⟩
  | 10 => ⟨S50000x16, .f32⟩
  | 11 => ⟨S50000x16, .f32⟩
  | 12 => ⟨S_, .f32⟩
  | 13 => ⟨S50000, .f32⟩
  | 14 => ⟨S50000x1, .f32⟩
  | 15 => ⟨S50000x1, .f32⟩
  | 16 => ⟨S50000x16, .f32⟩
  | 17 => ⟨S50000x16, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_17 : Ref sig .tc := ⟨.hbm, 102, rfl⟩
abbrev main_v71 : Ref sig .tc := ⟨.hbm, 103, rfl⟩
abbrev main_v72 : Ref sig .tc := ⟨.hbm, 104, rfl⟩
abbrev main_c_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_c_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_call3_cst_0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_v6 : Ref sig .tc := ⟨.hbm, 139, rfl⟩
abbrev main_call3_cst_1 : Ref sig .tc := ⟨.hbm, 140, rfl⟩
abbrev main_call3_v7 : Ref sig .tc := ⟨.hbm, 141, rfl⟩
abbrev main_call3_v8 : Ref sig .tc := ⟨.hbm, 142, rfl⟩
abbrev main_call3_v9 : Ref sig .tc := ⟨.hbm, 143, rfl⟩
abbrev main_call3_v10 : Ref sig .tc := ⟨.hbm, 144, rfl⟩
abbrev main_v95 : Ref sig .tc := ⟨.hbm, 145, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  dot_S50000x96_S96x64_S50000x64_1_0_0_1_n_n_wf : DotDims.WF S50000x96 S96x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x16_S50000x16_1_0_0_1_n_n_wf : DotDims.WF S50000x64 S64x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.KRun.lean ====
/-
  The idealized kernel's run with its RESULT named: every weakly fair execution of @main terminates, nothing
  faulting, the argument arrays as launched, and the result array at the contents the last boundary of the run holds
  for it — the fold of the host stretches and of the three regions' write-backs from the launch memory (`Gen.W8`),
  which the modules after this one read one segment at a time.
-/
import proofs.«117805_j21320217657891_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run over @main's eight segments (three stretches of host operations, a region, a stretch, a region, a stretch,
    a region), the final state read at every unscoped buffer: the result's buffer holds the last boundary's contents,
    each argument's its launch contents. -/
theorem run_main : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Hand

end
-- ==== Proof.Spec.lean ====
/-
  The three dense stages of a two-layer graph convolution, each as ONE function of whole arrays, entry by entry, on the
  extended reals — general in the extents, so that the same function names both what one grid point computes from a
  block of rows and what the whole array ends holding:

  * `dense a b`: rows times columns, entry (r, c) is Σ_k a[r, k] · b[k, c];
  * `biasReluDense a β w`: the bias row β added to every row of a, negative entries cut to zero, then rows times
    columns: entry (r, c) is Σ_k max (a[r, k] + β[0, k]) 0 · w[k, c];
  * `biasLogSoftmax a β`: the bias row added, then the logarithm of the softmax along each row, computed the stable
    way: with t[r, j] = a[r, j] + β[0, j] and μ_r = sup_j t[r, j], entry (r, c) is (t[r, c] − μ_r) − log Σ_j exp (t[r, j] − μ_r).

  Each entry depends on ONE row of the first operand only; that is why cutting the rows into blocks and computing block
  by block gives the whole array (`*_rows`).
-/
import Idealize.ShloMosaic.PureOps.Ideal
import Idealize.ShloMosaic.Lib.ValueIdx

noncomputable section

open scoped BigOperators

namespace Cert.Gcn

open Idealize.ShloMosaic Idealize.ShloMosaic.ValueIdx

variable {M K N : Nat}

/-- The row of an entry of a two-axis array. -/
abbrev row (i : (⟨2, ![M, N]⟩ : Shape).Idx) : Fin M := ⟨(i 0).val, (i 0).isLt⟩
/-- The column of an entry of a two-axis array. -/
abbrev col (i : (⟨2, ![M, N]⟩ : Shape).Idx) : Fin N := ⟨(i 1).val, (i 1).isLt⟩

/-- Rows times columns. -/
def dense (a : FVec Ideal ⟨2, ![M, K]⟩ .f32) (b : FVec Ideal ⟨2, ![K, N]⟩ .f32) : FVec Ideal ⟨2, ![M, N]⟩ .f32 :=
  fun i => ∑ k : Fin K, a (ix2 (row i) k) * b (ix2 k (col i))

/-- A row with the bias row added and its negative entries cut to zero (the zero is the zero word, never evaluated). -/
def biasRelu (a : FVec Ideal ⟨2, ![M, K]⟩ .f32) (β : FVec Ideal ⟨2, ![1, K]⟩ .f32) (r : Fin M) (k : Fin K) : EReal :=
  max (a (ix2 r k) + β (ix2 (0 : Fin 1) k)) (Ideal.ofBits .f32 0x00000000#32)

/-- Bias, cut at zero, rows times columns. -/
def biasReluDense (a : FVec Ideal ⟨2, ![M, K]⟩ .f32) (β : FVec Ideal ⟨2, ![1, K]⟩ .f32) (w : FVec Ideal ⟨2, ![K, N]⟩ .f32) :
    FVec Ideal ⟨2, ![M, N]⟩ .f32 :=
  fun i => ∑ k : Fin K, biasRelu a β (row i) k * w (ix2 k (col i))

/-- An entry with the bias row added. -/
def biased (a : FVec Ideal ⟨2, ![M, N]⟩ .f32) (β : FVec Ideal ⟨2, ![1, N]⟩ .f32) (r : Fin M) (j : Fin N) : EReal :=
  a (ix2 r j) + β (ix2 (0 : Fin 1) j)

/-- The largest biased entry of a row. -/
def rowMax (a : FVec Ideal ⟨2, ![M, N]⟩ .f32) (β : FVec Ideal ⟨2, ![1, N]⟩ .f32) (r : Fin M) : EReal :=
  Finset.univ.sup fun j : Fin N => biased a β r j

/-- Bias, then the logarithm of the softmax along each row. -/
def biasLogSoftmax (a : FVec Ideal ⟨2, ![M, N]⟩ .f32) (β : FVec Ideal ⟨2, ![1, N]⟩ .f32) : FVec Ideal ⟨2, ![M, N]⟩ .f32 :=
  fun i => (biased a β (row i) (col i) - rowMax a β (row i))
    - Ideal.log (∑ j : Fin N, Ideal.exp (biased a β (row i) j - rowMax a β (row i)))

/-! ## Each entry depends on one row of the first operand -/

/-- If row `r'` of `a'` is row `r` of `a`, the products agree on those rows. -/
theorem dense_rows {M' : Nat} (a : FVec Ideal ⟨2, ![M, K]⟩ .f32) (a' : FVec Ideal ⟨2, ![M', K]⟩ .f32)
    (b : FVec Ideal ⟨2, ![K, N]⟩ .f32) (r : Fin M) (r' : Fin M') (c : Fin N)
    (h : ∀ k : Fin K, a' (ix2 r' k) = a (ix2 r k)) : dense a' b (ix2 r' c) = dense a b (ix2 r c) :=
  Finset.sum_congr rfl fun k _ => by
    show a' (ix2 r' k) * b (ix2 k c) = a (ix2 r k) * b (ix2 k c)
    rw [h k]

theorem biasReluDense_rows {M' : Nat} (a : FVec Ideal ⟨2, ![M, K]⟩ .f32) (a' : FVec Ideal ⟨2, ![M', K]⟩ .f32)
    (β : FVec Ideal ⟨2, ![1, K]⟩ .f32) (w : FVec Ideal ⟨2, ![K, N]⟩ .f32) (r : Fin M) (r' : Fin M') (c : Fin N)
    (h : ∀ k : Fin K, a' (ix2 r' k) = a (ix2 r k)) : biasReluDense a' β w (ix2 r' c) = biasReluDense a β w (ix2 r c) :=
  Finset.sum_congr rfl fun k _ => by
    show biasRelu a' β r' k * w (ix2 k c) = biasRelu a β r k * w (ix2 k c)
    unfold biasRelu; rw [h k]

theorem biasLogSoftmax_rows {M' : Nat} (a : FVec Ideal ⟨2, ![M, N]⟩ .f32) (a' : FVec Ideal ⟨2, ![M', N]⟩ .f32)
    (β : FVec Ideal ⟨2, ![1, N]⟩ .f32) (r : Fin M) (r' : Fin M') (c : Fin N)
    (h : ∀ j : Fin N, a' (ix2 r' j) = a (ix2 r j)) : biasLogSoftmax a' β (ix2 r' c) = biasLogSoftmax a β (ix2 r c) := by
  have hb : ∀ j : Fin N, biased a' β r' j = biased a β r j := fun j => by unfold biased; rw [h j]
  have hm : rowMax a' β r' = rowMax a β r := by unfold rowMax; exact congrArg _ (funext hb)
  show (biased a' β r' c - rowMax a' β r') - Ideal.log (∑ j : Fin N, Ideal.exp (biased a' β r' j - rowMax a' β r'))
    = (biased a β r c - rowMax a β r) - Ideal.log (∑ j : Fin N, Ideal.exp (biased a β r j - rowMax a β r))
  rw [hm, hb c]
  exact congrArg _ (congrArg Ideal.log (Finset.sum_congr rfl fun j _ => by rw [hb j]))

end Cert.Gcn

end
-- ==== Proof.Region0.lean ====
/-
  The first pallas_call, x @ W1 over ten blocks of 5000 rows: the array it leaves is the whole product.

  Grid point t loads rows 5000·t … 5000·t + 4999 of x and the whole of W1, and writes back rows 5000·t … of the result.
  An entry of a product of rows by columns depends on one row of the left operand, so the block's product IS the whole
  product read through the block; the ten blocks tile the 50000 rows.
-/
import proofs.«117805_j21320217657891_1_alg».proof.Proof.Gen.KernelIdeal.Frame
import proofs.«117805_j21320217657891_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Gcn Idealize.ShloMosaic.ValueIdx

-- the contents of the TensorCore's buffers when the region is entered: a parameter
variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the row-block of x and of the result is the point, every other block index 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed0_eq (hpay : ∀ (x0 : Vec Ideal S5000x96 .f32) (x1 : Vec Ideal S96x64 .f32),
      k0_pay1 (F := Ideal) x0 x1 = dense (M := 5000) (K := 96) (N := 64) x0 x1) (c : Dev nD) (t : Fin cfg0.N) :
    (dat0 V c).flushed 2 t
      = ((cfg0.win 2).blk t).view.read (Elt Ideal) (dense (M := 50000) (K := 96) (N := 64) (V c main_arg0) (V c main_arg2)) := by
  show (cfg0.win 2).cut (grid0.coords t) ((dat0 V c).after 2 t) = _
  rw [after0_2]
  unfold out0_2
  rw [View.canon_unit_zero hz0]
  simp only [View.ld_unit_zero (S := S5000x96) hz0, View.ld_unit_zero (S := S96x64) hz0]
  rw [hpay]
  obtain ⟨e0, e1, e2, e3, e4, e5⟩ := idx_facts0 t
  have ht : t.val < 10 := lt_of_lt_of_eq t.isLt N_0
  funext j
  obtain ⟨p, q, rfl⟩ : ∃ (p : Fin 5000) (q : Fin 64), j = ix2 p q := ⟨j 0, j 1, eq_ix2 j⟩
  show dense (M := 5000) (K := 96) (N := 64) (iblk0 V c 0 t) (iblk0 V c 1 t) (ix2 p q)
    = dense (M := 50000) (K := 96) (N := 64) (V c main_arg0) (V c main_arg2) (((cfg0.win 2).blk t).view.emb (ix2 p q))
  have hidx : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  have hB : (iblk0 V c 1 t : Vec Ideal S96x64 .f32) = V c main_arg2 := funext fun y => by
    show V c main_arg2 (((cfg0.win 1).blk t).view.emb y) = V c main_arg2 y
    refine congrArg (V c main_arg2) (funext fun a => Fin.ext ?_)
    match a with
    | ⟨0, _⟩ => show win0_1.index t (0 : Fin 2) * 96 + 1 * (y 0).val = (y 0).val; omega
    | ⟨1, _⟩ => show win0_1.index t (1 : Fin 2) * 64 + 1 * (y 1).val = (y 1).val; omega
  refine Eq.trans ?_ (congrArg (dense (M := 50000) (K := 96) (N := 64) (V c main_arg0) (V c main_arg2)) hidx).symm
  rw [hB]
  refine dense_rows (V c main_arg0) (iblk0 V c 0 t) (V c main_arg2) _ p q fun k => ?_
  show V c main_arg0 (((cfg0.win 0).blk t).view.emb (ix2 p k)) = V c main_arg0 (ix2 _ k)
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 96 + 1 * k.val = k.val; omega

/-- An index of the result is in point `t`'s block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The ten row blocks tile the result: row `r` is in the block of point `r / 5000`. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨e0, e1, e2, e3, e4, e5⟩ := idx_facts0 t
  have e4' : win0_2.index t (0 : Fin 2) = (i 0).val / 5000 := e4
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE ARRAY the first pallas_call leaves: the whole product of the arrays it was entered with. -/
theorem final0 (hpay : ∀ (x0 : Vec Ideal S5000x96 .f32) (x1 : Vec Ideal S96x64 .f32),
      k0_pay1 (F := Ideal) x0 x1 = dense (M := 5000) (K := 96) (N := 64) x0 x1) (c : Dev nD) :
    (dat0 V c).arrAt 2 cfg0.N = dense (M := 50000) (K := 96) (N := 64) (V c main_arg0) (V c main_arg2) :=
  (dat0 V c).arrAt_eq_of_cover 2 _ (fun t _ => flushed0_eq V hpay c t) cover0

end Cert.KernelIdeal.Hand

end
-- ==== Proof.Region1.lean ====
/-
  The second pallas_call, relu(agg + b1) @ W2 over ten blocks of 5000 rows: the array it leaves is the whole stage.

  Grid point t loads rows 5000·t … 5000·t + 4999 of the aggregated features, the whole bias row and the whole of W2,
  and writes back rows 5000·t … of the result. An entry of the stage depends on one row of the features, so the
  block's result IS the whole stage read through the block; the ten blocks tile the 50000 rows.
-/
import proofs.«117805_j21320217657891_1_alg».proof.Proof.Gen.KernelIdeal.Frame
import proofs.«117805_j21320217657891_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Gcn Idealize.ShloMosaic.ValueIdx

-- the contents of the TensorCore's buffers when the region is entered: a parameter
variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the row-block of the features and of the result is the point, every other
    block index 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole stage. -/
theorem flushed1_eq (hpay : ∀ (x0 : Vec Ideal S5000x64 .f32) (x1 : Vec Ideal S1x64 .f32) (x2 : Vec Ideal S64x16 .f32),
      k1_pay1 (F := Ideal) x0 x1 x2 = biasReluDense (M := 5000) (K := 64) (N := 16) x0 x1 x2) (c : Dev nD) (t : Fin cfg1.N) :
    (dat1 V c).flushed 3 t
      = ((cfg1.win 3).blk t).view.read (Elt Ideal)
          (biasReluDense (M := 50000) (K := 64) (N := 16) (V c main_v45) (V c main_v46) (V c main_arg4)) := by
  show (cfg1.win 3).cut (grid1.coords t) ((dat1 V c).after 3 t) = _
  rw [after1_3]
  unfold out1_3
  rw [View.canon_unit_zero hz1]
  simp only [View.ld_unit_zero (S := S5000x64) hz1, View.ld_unit_zero (S := S1x64) hz1, View.ld_unit_zero (S := S64x16) hz1]
  rw [hpay]
  obtain ⟨e0, e1, e2, e3, e4, e5, e6, e7⟩ := idx_facts1 t
  have ht : t.val < 10 := lt_of_lt_of_eq t.isLt N_1
  funext j
  obtain ⟨p, q, rfl⟩ : ∃ (p : Fin 5000) (q : Fin 16), j = ix2 p q := ⟨j 0, j 1, eq_ix2 j⟩
  show biasReluDense (M := 5000) (K := 64) (N := 16) (iblk1 V c 0 t) (iblk1 V c 1 t) (iblk1 V c 2 t) (ix2 p q)
    = biasReluDense (M := 50000) (K := 64) (N := 16) (V c main_v45) (V c main_v46) (V c main_arg4)
        (((cfg1.win 3).blk t).view.emb (ix2 p q))
  have hidx : ((cfg1.win 3).blk t).view.emb (ix2 p q) = ix2 (⟨t.val * 5000 + p.val, by omega⟩ : Fin 50000) q := by
    funext a; apply Fin.ext
    match a with
    | ⟨0, _⟩ => show win1_3.index t (0 : Fin 2) * 5000 + 1 * p.val = t.val * 5000 + p.val; omega
    | ⟨1, _⟩ => show win1_3.index t (1 : Fin 2) * 16 + 1 * q.val = q.val; omega
  have hβ : (iblk1 V c 1 t : Vec Ideal S1x64 .f32) = V c main_v46 := funext fun y => by
    show V c main_v46 (((cfg1.win 1).blk t).view.emb y) = V c main_v46 y
    refine congrArg (V c main_v46) (funext fun a => Fin.ext ?_)
    match a with
    | ⟨0, _⟩ => show win1_1.index t (0 : Fin 2) * 1 + 1 * (y 0).val = (y 0).val; omega
    | ⟨1, _⟩ => show win1_1.index t (1 : Fin 2) * 64 + 1 * (y 1).val = (y 1).val; omega
  have hW : (iblk1 V c 2 t : Vec Ideal S64x16 .f32) = V c main_arg4 := funext fun y => by
    show V c main_arg4 (((cfg1.win 2).blk t).view.emb y) = V c main_arg4 y
    refine congrArg (V c main_arg4) (funext fun a => Fin.ext ?_)
    match a with
    | ⟨0, _⟩ => show win1_2.index t (0 : Fin 2) * 64 + 1 * (y 0).val = (y 0).val; omega
    | ⟨1, _⟩ => show win1_2.index t (1 : Fin 2) * 16 + 1 * (y 1).val = (y 1).val; omega
  refine Eq.trans ?_ (congrArg (biasReluDense (M := 50000) (K := 64) (N := 16) (V c main_v45) (V c main_v46) (V c main_arg4)) hidx).symm
  rw [hβ, hW]
  refine biasReluDense_rows (V c main_v45) (iblk1 V c 0 t) (V c main_v46) (V c main_arg4) _ p q fun k => ?_
  show V c main_v45 (((cfg1.win 0).blk t).view.emb (ix2 p k)) = V c main_v45 (ix2 _ k)
  refine congrArg (V c main_v45) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

/-- An index of the result is in point `t`'s block iff each coordinate is in the block's range on its axis. -/
theorem mem_blk1 (t : Fin cfg1.N) (i : S50000x16.Idx) :
    i ∈ ((cfg1.win 3).blk t).view.set ↔ ∀ a : Fin 2, win1_3.index t a * S5000x16.size a ≤ (i a).val ∧ (i a).val < win1_3.index t a * S5000x16.size a + S5000x16.size a := by
  show i ∈ ((View.whole main_v47).slice (win1_3.rect t)).set ↔ _
  rw [View.set_slice_whole, Rect.mem_set_unit]
  exact Iff.rfl

/-- The ten row blocks tile the result: row `r` is in the block of point `r / 5000`. -/
theorem cover1 (i : S50000x16.Idx) : ∃ t : Fin cfg1.N, (cfg1.win 3).flush t = true ∧ i ∈ ((cfg1.win 3).blk t).view.set := by
  have hi0 : (i 0).val < 50000 := (i 0).isLt
  have hi1 : (i 1).val < 16 := (i 1).isLt
  have hN : cfg1.N = 10 := N_1
  let t : Fin cfg1.N := ⟨(i 0).val / 5000, by rw [hN]; omega⟩
  obtain ⟨e0, e1, e2, e3, e4, e5, e6, e7⟩ := idx_facts1 t
  have e6' : win1_3.index t (0 : Fin 2) = (i 0).val / 5000 := e6
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 16 ≤ (i 1).val ∧ (i 1).val < win1_3.index t (1 : Fin 2) * 16 + 16; omega

/-- THE ARRAY the second pallas_call leaves: the whole stage of the arrays it was entered with. -/
theorem final1 (hpay : ∀ (x0 : Vec Ideal S5000x64 .f32) (x1 : Vec Ideal S1x64 .f32) (x2 : Vec Ideal S64x16 .f32),
      k1_pay1 (F := Ideal) x0 x1 x2 = biasReluDense (M := 5000) (K := 64) (N := 16) x0 x1 x2) (c : Dev nD) :
    (dat1 V c).arrAt 3 cfg1.N
      = biasReluDense (M := 50000) (K := 64) (N := 16) (V c main_v45) (V c main_v46) (V c main_arg4) :=
  (dat1 V c).arrAt_eq_of_cover 3 _ (fun t _ => flushed1_eq V hpay c t) cover1

end Cert.KernelIdeal.Hand

end
-- ==== Proof.Region2.lean ====
/-
  The third pallas_call, log_softmax(agg + b2) along each row, over ten blocks of 5000 rows: the array it leaves is
  the whole stage.

  Grid point t loads rows 5000·t … 5000·t + 4999 of the aggregated features and the whole bias row, and writes back
  rows 5000·t … of the result. The maximum, the sum and so the entry of a row depend on that row only, so the block's
  result IS the whole stage read through the block; the ten blocks tile the 50000 rows.
-/
import proofs.«117805_j21320217657891_1_alg».proof.Proof.Gen.KernelIdeal.Frame
import proofs.«117805_j21320217657891_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Gcn Idealize.ShloMosaic.ValueIdx

-- the contents of the TensorCore's buffers when the region is entered: a parameter
variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row-block of the features and of the result is the point, every other
    block index 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole stage. -/
theorem flushed2_eq (hpay : ∀ (x0 : Vec Ideal S5000x16 .f32) (x1 : Vec Ideal S1x16 .f32),
      k2_pay1 (F := Ideal) x0 x1 = biasLogSoftmax (M := 5000) (N := 16) x0 x1) (c : Dev nD) (t : Fin cfg2.N) :
    (dat2 V c).flushed 2 t
      = ((cfg2.win 2).blk t).view.read (Elt Ideal) (biasLogSoftmax (M := 50000) (N := 16) (V c main_v60) (V c main_v61)) := by
  show (cfg2.win 2).cut (grid2.coords t) ((dat2 V c).after 2 t) = _
  rw [after2_2]
  unfold out2_2
  rw [View.canon_unit_zero hz2]
  simp only [View.ld_unit_zero (S := S5000x16) hz2, View.ld_unit_zero (S := S1x16) hz2]
  rw [hpay]
  obtain ⟨e0, e1, e2, e3, e4, e5⟩ := idx_facts2 t
  have ht : t.val < 10 := lt_of_lt_of_eq t.isLt N_2
  funext j
  obtain ⟨p, q, rfl⟩ : ∃ (p : Fin 5000) (q : Fin 16), j = ix2 p q := ⟨j 0, j 1, eq_ix2 j⟩
  show biasLogSoftmax (M := 5000) (N := 16) (iblk2 V c 0 t) (iblk2 V c 1 t) (ix2 p q)
    = biasLogSoftmax (M := 50000) (N := 16) (V c main_v60) (V c main_v61) (((cfg2.win 2).blk t).view.emb (ix2 p q))
  have hidx : ((cfg2.win 2).blk t).view.emb (ix2 p q) = ix2 (⟨t.val * 5000 + p.val, by omega⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 16 + 1 * q.val = q.val; omega
  have hβ : (iblk2 V c 1 t : Vec Ideal S1x16 .f32) = V c main_v61 := funext fun y => by
    show V c main_v61 (((cfg2.win 1).blk t).view.emb y) = V c main_v61 y
    refine congrArg (V c main_v61) (funext fun a => Fin.ext ?_)
    match a with
    | ⟨0, _⟩ => show win2_1.index t (0 : Fin 2) * 1 + 1 * (y 0).val = (y 0).val; omega
    | ⟨1, _⟩ => show win2_1.index t (1 : Fin 2) * 16 + 1 * (y 1).val = (y 1).val; omega
  refine Eq.trans ?_ (congrArg (biasLogSoftmax (M := 50000) (N := 16) (V c main_v60) (V c main_v61)) hidx).symm
  rw [hβ]
  refine biasLogSoftmax_rows (V c main_v60) (iblk2 V c 0 t) (V c main_v61) _ p q fun k => ?_
  show V c main_v60 (((cfg2.win 0).blk t).view.emb (ix2 p k)) = V c main_v60 (ix2 _ k)
  refine congrArg (V c main_v60) (funext fun a => Fin.ext ?_)
  match a with
  | ⟨0, _⟩ => show win2_0.index t (0 : Fin 2) * 5000 + 1 * p.val = t.val * 5000 + p.val; omega
  | ⟨1, _⟩ => show win2_0.index t (1 : Fin 2) * 16 + 1 * k.val = k.val; omega

/-- An index of the result is in point `t`'s block iff each coordinate is in the block's range on its axis. -/
theorem mem_blk2 (t : Fin cfg2.N) (i : S50000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v62).slice (win2_2.rect t)).set ↔ _
  rw [View.set_slice_whole, Rect.mem_set_unit]
  exact Iff.rfl

/-- The ten row blocks tile the result: row `r` is in the block of point `r / 5000`. -/
theorem cover2 (i : S50000x16.Idx) : ∃ t : Fin cfg2.N, (cfg2.win 2).flush t = true ∧ i ∈ ((cfg2.win 2).blk t).view.set := by
  have hi0 : (i 0).val < 50000 := (i 0).isLt
  have hi1 : (i 1).val < 16 := (i 1).isLt
  have hN : cfg2.N = 10 := N_2
  let t : Fin cfg2.N := ⟨(i 0).val / 5000, by rw [hN]; omega⟩
  obtain ⟨e0, e1, e2, e3, e4, e5⟩ := idx_facts2 t
  have e4' : win2_2.index t (0 : Fin 2) = (i 0).val / 5000 := e4
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- THE ARRAY the third pallas_call leaves: the whole stage of the arrays it was entered with. -/
theorem final2 (hpay : ∀ (x0 : Vec Ideal S5000x16 .f32) (x1 : Vec Ideal S1x16 .f32),
      k2_pay1 (F := Ideal) x0 x1 = biasLogSoftmax (M := 5000) (N := 16) x0 x1) (c : Dev nD) :
    (dat2 V c).arrAt 2 cfg2.N = biasLogSoftmax (M := 50000) (N := 16) (V c main_v60) (V c main_v61) :=
  (dat2 V c).arrAt_eq_of_cover 2 _ (fun t _ => flushed2_eq V hpay c t) cover2

end Cert.KernelIdeal.Hand

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.LibTrailAxis.lean ====
/-
  Reductions over the TRAILING axis of an [m, n] vector, kept as an [m, 1] column and broadcast back along
  the n lanes (what `jnp.sum(x, axis=1, keepdims=True)` becomes in a kernel body), read at an entry (i, j):
  the plain sum over the n entries of row i.  Also a value broadcast from a [1, 1, 1] cell to a [1, a, b]
  block, and a sum over a rank-3 index set as the triple sum over its coordinates.  General in the extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.TrailAxis

open Idealize.ShloMosaic Idealize.ShloMosaic.ValueIdx

variable {m n : Nat}

/-- The index of the [m, n] vector that reduces to row `i` with `k` put back on the trailing axis is (i, k). -/
theorem lift_trail (h : (⟨2, ![m, n]⟩ : Shape).Reduces [1] ⟨1, ![m]⟩) (i : Fin m) (k : Fin n) :
    h.lift (ix1 i) k = ix2 i k :=
  funext fun a => Fin.ext (by match a with | ⟨0, _⟩ => rfl | ⟨1, _⟩ => rfl)

/-- A sum over the trailing axis, at row `i`: the sum along row `i`. -/
theorem sum_trail_apply (src : FVec Ideal ⟨2, ![m, n]⟩ .f32) (h : (⟨2, ![m, n]⟩ : Shape).Reduces [1] ⟨1, ![m]⟩)
    (hφ : FKind.Formats .f32) (hacc : (0x00000000#32 : BitVec 32) = 0x00000000#32) (i : Fin m) :
    multiReduction .add [1] ⟨1, ![m]⟩ src 0x00000000#32 h hφ hacc (ix1 i) = ∑ k : Fin n, src (ix2 i k) := by
  refine (Ideal.multiReduction_add_single src 0x00000000#32 h hφ hacc (ix1 i)).trans ?_
  exact Finset.sum_congr rfl fun k _ => congrArg src (lift_trail h i k)

/-- A vector kept as a one-column matrix reads, at (i, 0), entry `i`. -/
theorem keepcol_apply {α : Type} (v : (⟨1, ![m]⟩ : Shape).Idx → α) (hc : (⟨1, ![m]⟩ : Shape).ShapeCasts ⟨2, ![m, 1]⟩)
    (i : Fin m) (u : Fin 1) : shapeCast ⟨2, ![m, 1]⟩ v hc (ix2 i u) = v (ix1 i) :=
  shapeCast_apply v hc _ _ (by
    have hu : u.val = 0 := by omega
    rw [Shape.rowMajor_val_two, Shape.rowMajor_val_one]
    show i.val = i.val * 1 + u.val
    omega)

/-- One column broadcast along `n` lanes reads, at (i, j), the column's entry `i`. -/
theorem broadcastTo_a1_ab_apply {α : Type} (v : (⟨2, ![m, 1]⟩ : Shape).Idx → α)
    (h : (⟨2, ![m, 1]⟩ : Shape).Broadcasts ⟨2, ![m, n]⟩) (i : Fin m) (j : Fin n) :
    broadcastTo ⟨2, ![m, n]⟩ v h (ix2 i j) = v (ix2 i (0 : Fin 1)) := by
  refine broadcastTo_apply v h (ix2 i j) (ix2 i (0 : Fin 1)) fun ax => ?_
  match ax with
  | ⟨0, _⟩ =>
    show i.val = if m = 1 then 0 else i.val
    split
    · have := i.isLt; omega
    · rfl
  | ⟨1, _⟩ => rfl

/-- A vector kept as a column and broadcast along `n` lanes reads, at (i, j), entry `i`. -/
theorem keepdims_col_apply {α : Type} (v : (⟨1, ![m]⟩ : Shape).Idx → α) (hc : (⟨1, ![m]⟩ : Shape).ShapeCasts ⟨2, ![m, 1]⟩)
    (hb : (⟨2, ![m, 1]⟩ : Shape).Broadcasts ⟨2, ![m, n]⟩) (i : Fin m) (j : Fin n) :
    broadcastTo ⟨2, ![m, n]⟩ (shapeCast ⟨2, ![m, 1]⟩ v hc) hb (ix2 i j) = v (ix1 i) :=
  (broadcastTo_a1_ab_apply _ hb i j).trans (keepcol_apply v hc i 0)

/-- One cell broadcast to a [1, a, b] block reads the cell everywhere. -/
theorem broadcastTo_111_1ab_apply {α : Type} {a b : Nat} (v : (⟨3, ![1, 1, 1]⟩ : Shape).Idx → α)
    (h : (⟨3, ![1, 1, 1]⟩ : Shape).Broadcasts ⟨3, ![1, a, b]⟩) (q : (⟨3, ![1, a, b]⟩ : Shape).Idx) :
    broadcastTo ⟨3, ![1, a, b]⟩ v h q = v (ix3 (0 : Fin 1) (0 : Fin 1) (0 : Fin 1)) :=
  broadcastTo_apply v h q _ fun ax => match ax with
    | ⟨0, _⟩ => rfl
    | ⟨1, _⟩ => rfl
    | ⟨2, _⟩ => rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.TrailAxis

end
-- ==== Proof.LibQuantLayer.lean ====
/-
  A fake-quantised linear layer on the extended reals, and why zero padding does not change it.

  A tensor is quantised against a scale `s`: `q lo s x = min 127 (max lo (round (x / s))) * s`, with `round` to the
  nearest integer, ties to even. The scale of a tensor is its largest absolute value over 127, floored at a small
  positive constant, so a scale is never zero. A layer sends `x` (rows `n`, features `k`) to
  `act (∑ k, q (-127) sx (x n k) * q (-127) sw (w j k) + q (-128) (sx * sw) (b j))`.

  Padding with zeros: `q lo s 0 = 0` for a nonzero scale and `lo ≤ 0`; a zero summand adds nothing; a product with a zero
  factor is zero on the extended reals; and the largest absolute value of a family does not change when zeros are added
  to a nonempty family. So a layer whose feature axes are padded with zeros computes, on the real lanes, the unpadded
  layer, and zero on the padded lanes when `act 0 = 0`.
-/
import Idealize.ShloMosaic.PureOps.Ideal
import Idealize.ShloMosaic.PureOps.Ideal.Laws
import Mathlib.Algebra.BigOperators.Fin
import Idealize.ShloMosaic.Lib.ValueIdx

noncomputable section

open scoped BigOperators

namespace Idealize.ShloMosaic.QuantLayer

open Idealize.ShloMosaic

/-! ## The four literal words -/

/-- `127.0` -/
abbrev w127 : EReal := Ideal.ofBits .f32 0x42FE0000#32
/-- `-127.0` -/
abbrev wm127 : EReal := Ideal.ofBits .f32 0xC2FE0000#32
/-- `-128.0` -/
abbrev wm128 : EReal := Ideal.ofBits .f32 0xC3000000#32
/-- the scale floor, the float nearest `1e-12` -/
abbrev wfloor : EReal := Ideal.ofBits .f32 0x2B8CBCCC#32
/-- `-∞`, the initial value of a maximum -/
abbrev wninf : EReal := Ideal.ofBits .f32 0xFF800000#32

theorem w127_eq : w127 = ((127 : ℝ) : EReal) := by
  simp [Ideal.ofBits, Ideal.ieee, -EReal.coe_mul]; norm_num
theorem wm127_eq : wm127 = ((-127 : ℝ) : EReal) := by
  simp [Ideal.ofBits, Ideal.ieee, -EReal.coe_mul]; norm_num
theorem wm128_eq : wm128 = ((-128 : ℝ) : EReal) := by
  simp [Ideal.ofBits, Ideal.ieee, -EReal.coe_mul]; norm_num
theorem wninf_eq : wninf = ⊥ := by
  simp [Ideal.ofBits, Ideal.ieee]

theorem w127_nonneg : 0 ≤ w127 := by rw [w127_eq]; exact_mod_cast (by norm_num : (0 : ℝ) ≤ 127)
theorem wm127_nonpos : wm127 ≤ 0 := by rw [wm127_eq]; exact_mod_cast (by norm_num : (-127 : ℝ) ≤ 0)
theorem wm128_nonpos : wm128 ≤ 0 := by rw [wm128_eq]; exact_mod_cast (by norm_num : (-128 : ℝ) ≤ 0)

theorem wfloor_pos : 0 < wfloor := by
  have h : wfloor = (((1 : ℝ) * ((2 ^ 23 + 834764 : ℕ) : ℝ) * (2 : ℝ) ^ (((87 : ℕ) : ℤ) - (2 ^ (8 - 1) - 1) - ((23 : ℕ) : ℤ)) : ℝ) : EReal) := by
    simp [Ideal.ofBits, Ideal.ieee, -EReal.coe_mul]
  rw [h, EReal.coe_pos]
  positivity

/-! ## Quantisation -/

/-- To the nearest integer, ties to even. -/
def rnd (x : EReal) : EReal := Ideal.liftRound Ideal.roundHalfEven x

/-- The absolute value. -/
def abs (x : EReal) : EReal := max x (-x)

/-- The scale of a tensor whose largest absolute value is `mx`. -/
def scaleOf (mx : EReal) : EReal := max (Ideal.div mx w127) wfloor

/-- Quantise `x` against the scale `s`, clipping below at `lo` and above at `127`. -/
def q (lo s x : EReal) : EReal := min w127 (max lo (rnd (Ideal.div x s))) * s

theorem rnd_zero : rnd 0 = 0 := by
  show Ideal.liftRound Ideal.roundHalfEven ((0 : ℝ) : EReal) = 0
  rw [Ideal.liftRound_coe]
  simp [Ideal.roundHalfEven]

theorem abs_zero : abs 0 = 0 := by simp [abs]

theorem abs_nonneg (x : EReal) : 0 ≤ abs x := by
  unfold abs
  rcases le_total 0 x with h | h
  · exact le_max_of_le_left h
  · exact le_max_of_le_right (by simpa using EReal.neg_le_neg_iff.mpr h)

theorem scaleOf_pos (mx : EReal) : 0 < scaleOf mx := lt_max_of_lt_right wfloor_pos

theorem scaleOf_ne_zero (mx : EReal) : scaleOf mx ≠ 0 := (scaleOf_pos mx).ne'

theorem div_zero_left {s : EReal} (hs : s ≠ 0) : Ideal.div 0 s = 0 := by
  unfold Ideal.div
  rw [if_neg hs, zero_mul]

theorem q_zero {lo s : EReal} (hlo : lo ≤ 0) (hs : s ≠ 0) : q lo s 0 = 0 := by
  unfold q
  rw [div_zero_left hs, rnd_zero, max_eq_right hlo, min_eq_right w127_nonneg, zero_mul]

theorem tanh_zero : Ideal.tanh 0 = 0 := by
  show ((Real.tanh 0 : ℝ) : EReal) = 0
  rw [Real.tanh_zero]; rfl

theorem mul_pos_ne_zero {a b : EReal} (ha : 0 < a) (hb : 0 < b) : a * b ≠ 0 :=
  (EReal.mul_pos ha hb).ne'

/-! ## Sums and maxima over a zero-padded axis -/

/-- A sum over `Fin K'` of a family that vanishes from `K` on is the sum over `Fin K` of its first `K` terms. -/
theorem sum_pad {K K' : Nat} (hK : K ≤ K') (f : Fin K' → EReal) (hf : ∀ k : Fin K', K ≤ k.val → f k = 0) :
    ∑ k : Fin K', f k = ∑ k : Fin K, f (Fin.castLE hK k) := by
  obtain ⟨d, rfl⟩ := Nat.exists_eq_add_of_le hK
  rw [Fin.sum_univ_add]
  have h0 : ∑ i : Fin d, f (Fin.natAdd K i) = 0 :=
    Finset.sum_eq_zero fun i _ => hf _ (by simp [Fin.natAdd])
  rw [h0, add_zero]
  refine Finset.sum_congr rfl fun k _ => ?_
  congr 1

/-- The largest absolute value over a finite index set; `⊥` over the empty one. -/
def amax {ι : Type} [Fintype ι] (x : ι → EReal) : EReal := Finset.univ.sup fun i => abs (x i)

theorem amax_nonneg {ι : Type} [Fintype ι] [Nonempty ι] (x : ι → EReal) : 0 ≤ amax x :=
  (abs_nonneg (x (Classical.arbitrary ι))).trans (Finset.le_sup (f := fun i => abs (x i)) (Finset.mem_univ _))

/-- Adding zeros to a nonempty family does not change its largest absolute value: if every entry of `y` is an entry
    of `x` or zero, and every entry of `x` is an entry of `y`, the two maxima agree. -/
theorem amax_pad {ι κ : Type} [Fintype ι] [Fintype κ] [Nonempty ι] (x : ι → EReal) (y : κ → EReal)
    (hy : ∀ j, (∃ i, y j = x i) ∨ y j = 0) (hx : ∀ i, ∃ j, y j = x i) : amax y = amax x := by
  apply le_antisymm
  · refine Finset.sup_le fun j _ => ?_
    rcases hy j with ⟨i, h⟩ | h
    · rw [h]; exact Finset.le_sup (f := fun i => abs (x i)) (Finset.mem_univ i)
    · rw [h, abs_zero]; exact amax_nonneg x
  · refine Finset.sup_le fun i _ => ?_
    obtain ⟨j, h⟩ := hx i
    rw [← h]; exact Finset.le_sup (f := fun j => abs (y j)) (Finset.mem_univ j)

/-! ## A layer -/

open Idealize.ShloMosaic.ValueIdx

/-- A layer with the activations' scale `sx` given: row `n`, output feature `j` is
    `act (∑ k, q (-127) sx (x n k) * q (-127) sw (w j k) + q (-128) (sx * sw) (b j))`, `sw` the weights' own scale. -/
def layerK (act : EReal → EReal) {N K J : Nat} (sx : EReal) (x : (⟨2, ![N, K]⟩ : Shape).Idx → EReal)
    (w : (⟨2, ![J, K]⟩ : Shape).Idx → EReal) (b : (⟨1, ![J]⟩ : Shape).Idx → EReal) : (⟨2, ![N, J]⟩ : Shape).Idx → EReal :=
  fun i => act ((∑ k : Fin K, q wm127 sx (x (ix2 (i 0) k)) * q wm127 (scaleOf (amax w)) (w (ix2 (i 1) k)))
    + q wm128 (sx * scaleOf (amax w)) (b (ix1 (i 1))))

/-- A layer: the activations' scale is their own. -/
def layerA (act : EReal → EReal) {N K J : Nat} (x : (⟨2, ![N, K]⟩ : Shape).Idx → EReal)
    (w : (⟨2, ![J, K]⟩ : Shape).Idx → EReal) (b : (⟨1, ![J]⟩ : Shape).Idx → EReal) : (⟨2, ![N, J]⟩ : Shape).Idx → EReal :=
  layerK act (scaleOf (amax x)) x w b

end Idealize.ShloMosaic.QuantLayer

end
-- ==== Proof.LibMaxAll.lean ====
/-
  A maximum taken over every entry of an array, on the extended reals.

  Both the kernel's `vector.multi_reduction <maximumf>` into a vector with a single cell and the host's
  `reduce maximum` into a scalar, started from `-∞`, are the supremum of all the operand's entries: `max` is
  commutative, associative and has `-∞ = ⊥` as its unit, so neither the order of the fold nor the shape the entries
  were laid out in matters.
-/
import Idealize.ShloMosaic.PureOps.Ideal.Laws
import Idealize.ShloMosaic.PureOps.Reduce
import proofs.«117805_j21320217657891_1_alg».proof.Proof.LibQuantLayer

noncomputable section

namespace Idealize.ShloMosaic.MaxAll

open Idealize.ShloMosaic

/-- A fold of `max` from `⊥` is the supremum. -/
theorem fold_max_bot {ι : Type} (s : Finset ι) (f : ι → EReal) : s.fold max ⊥ f = s.sup f := by
  apply le_antisymm
  · rw [Finset.fold_max_le]; exact ⟨bot_le, fun x hx => Finset.le_sup hx⟩
  · exact Finset.sup_le fun x hx => (Finset.le_fold_max _).2 (Or.inr ⟨x, hx, le_rfl⟩)

/-- The supremum of all entries does not depend on the shape they are laid out in. -/
theorem sup_reshape {s t : Shape} (x : s.Idx → EReal) (h : s.ShapeCasts t) :
    Finset.univ.sup (fun j : t.Idx => x (Shape.reshapeEquiv h j)) = Finset.univ.sup x := by
  apply le_antisymm
  · exact Finset.sup_le fun j _ => Finset.le_sup (f := x) (Finset.mem_univ (Shape.reshapeEquiv h j))
  · refine Finset.sup_le fun k _ => ?_
    have e : x k = (fun j : t.Idx => x (Shape.reshapeEquiv h j)) ((Shape.reshapeEquiv h).symm k) := by
      show x k = x _; rw [Equiv.apply_symm_apply]
    rw [e]; exact Finset.le_sup (f := fun j : t.Idx => x (Shape.reshapeEquiv h j)) (Finset.mem_univ _)

/-- The same for the shape cast as the programs spell it. -/
theorem sup_shapeCast {s t : Shape} (x : s.Idx → EReal) (h : s.ShapeCasts t) :
    Finset.univ.sup (shapeCast t x h) = Finset.univ.sup x := sup_reshape x h

/-- The kernel's maximum-reduction from `-∞` into a shape with one cell is the supremum of all the source's entries. -/
theorem multiReduction_max_all {s t : Shape} {axes : List (Fin s.rank)} [Subsingleton t.Idx] (src : FVec Ideal s .f32)
    (h : s.Reduces axes t) (hφ : FKind.Formats .f32) (hacc : (0xFF800000#32 : BitVec 32) = FKind.maximumf.neutral .f32 hφ)
    (j : t.Idx) :
    multiReduction .maximumf axes t src 0xFF800000#32 h hφ hacc j = Finset.univ.sup src := by
  rw [multiReduction_maximumf_eq_fold, Finset.filter_true_of_mem (fun i _ => Subsingleton.elim _ _)]
  show Finset.univ.fold max (Ideal.ofBits .f32 0xFF800000#32) src = _
  rw [show Ideal.ofBits .f32 0xFF800000#32 = ⊥ from QuantLayer.wninf_eq]
  exact fold_max_bot _ _

/-- The host's `reduce maximum` into a shape with one cell, from an initial array whose first entry is `-∞`, is the
    supremum of all the operand's entries. -/
theorem hostReduce_max_all {s t u : Shape} {axes : List (Fin s.rank)} [Subsingleton t.Idx] (x : s.Idx → EReal)
    (init : u.Idx → EReal) (h : s.ReducesTo axes t) (hu : 0 < u.numel) (hinit : init (Shape.Idx.first hu) = ⊥) (j : t.Idx) :
    Host.reduce (FloatOps.maximumf (F := Ideal) (φ := .f32)) x init h hu j = Finset.univ.sup x := by
  rw [Host.reduce_eq_fold, Finset.filter_true_of_mem (fun i _ => Subsingleton.elim _ _), hinit]
  exact fold_max_bot _ _

end Idealize.ShloMosaic.MaxAll

end
-- ==== Proof.LibRowMax.lean ====
/-
  The maximum of each row of a two-axis array, on the extended reals.

  The host's `reduce maximum` over the second axis of an [m, n] array, started from `-∞`, has at row r the supremum
  of the n entries of that row: `max` is commutative, associative and has `-∞ = ⊥` as its unit, so the order in which
  the row is folded does not matter.
-/
import Idealize.ShloMosaic.PureOps.Ideal.Laws
import Idealize.ShloMosaic.PureOps.Reduce
import Idealize.ShloMosaic.Lib.ValueIdx
import proofs.«117805_j21320217657891_1_alg».proof.Proof.LibMaxAll

noncomputable section

namespace Idealize.ShloMosaic.LibRowMax

open Idealize.ShloMosaic Idealize.ShloMosaic.ValueIdx

/-- The row index `r` with the column `k` put back on the reduced axis is (r, k). -/
theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The host's `reduce maximum` over the second axis, from an initial array whose first entry is `-∞`, is at row `r`
    the supremum of the row's entries. -/
theorem hostReduce_max_row {m n : Nat} {u : Shape} (x : (⟨2, ![m, n]⟩ : Shape).Idx → EReal) (init : u.Idx → EReal)
    (h' : (⟨2, ![m, n]⟩ : Shape).ReducesTo [1] (⟨1, ![m]⟩ : Shape)) (h : (⟨2, ![m, n]⟩ : Shape).Reduces [1] (⟨1, ![m]⟩ : Shape))
    (hu : 0 < u.numel) (hinit : init (Shape.Idx.first hu) = ⊥) (r : Fin m) :
    Host.reduce (FloatOps.maximumf (F := Ideal) (φ := .f32)) x init h' hu (ix1 r)
      = Finset.univ.sup fun k : Fin n => x (ix2 r k) := by
  refine (Host.reduce_eq_fold_single (FloatOps.maximumf (F := Ideal) (φ := .f32)) x init h' h hu (ix1 r)).trans ?_
  rw [hinit]
  refine Eq.trans ?_ (MaxAll.fold_max_bot (Finset.univ : Finset (Fin n)) fun k => x (ix2 r k))
  have hf : (x ∘ h.lift (ix1 r)) = fun k : Fin n => x (ix2 r k) := funext fun k => congrArg x (lift_row h r k)
  exact congrArg (fun f => Finset.fold max (⊥ : EReal) f (Finset.univ : Finset (Fin n))) hf

end Idealize.ShloMosaic.LibRowMax

end
-- ==== Proof.LibRowReduce.lean ====
/-
  Two row-wise operations of a two-axis array at the ideal values, read at an entry.

  The maximum of each row: a maximum-reduction over the second axis of an [m, n] array, started from `-∞`, has at
  row r the supremum of the n entries of that row — `max` is commutative and associative with unit `-∞ = ⊥`, so
  the order of the fold does not matter.  And the transpose of a column: an [n, 1] array transposed to [1, n] has
  entry (0, j) at (j, 0).
-/
import Idealize.ShloMosaic.PureOps.Ideal.Laws
import Idealize.ShloMosaic.PureOps.Reduce
import Idealize.ShloMosaic.Lib.Pipeline.Value
import Idealize.ShloMosaic.Lib.ValueIdx
import proofs.«117805_j21320217657891_1_alg».proof.Proof.LibMaxAll
import proofs.«117805_j21320217657891_1_alg».proof.Proof.LibRowMax

noncomputable section

namespace Idealize.ShloMosaic.LibRowReduce

open Idealize.ShloMosaic Idealize.ShloMosaic.ValueIdx

/-- A maximum-reduction from `-∞` over the second axis of an [m, n] array is, at row `r`, the supremum of the
    row's entries. -/
theorem multiReduction_max_row {m n : Nat} (src : FVec Ideal ⟨2, ![m, n]⟩ .f32)
    (h : (⟨2, ![m, n]⟩ : Shape).Reduces [1] (⟨1, ![m]⟩ : Shape)) (hφ : FKind.Formats .f32)
    (hacc : (0xFF800000#32 : BitVec 32) = FKind.maximumf.neutral .f32 hφ) (r : Fin m) :
    multiReduction .maximumf [1] ⟨1, ![m]⟩ src 0xFF800000#32 h hφ hacc (ix1 r)
      = Finset.univ.sup fun k : Fin n => src (ix2 r k) := by
  refine (Ideal.multiReduction_maximumf_single src _ h hφ hacc (ix1 r)).trans ?_
  show (Finset.univ : Finset (Fin n)).fold max (Ideal.ofBits .f32 0xFF800000#32) (src ∘ h.lift (ix1 r)) = _
  rw [show Ideal.ofBits .f32 0xFF800000#32 = ⊥ from QuantLayer.wninf_eq]
  refine Eq.trans ?_ (MaxAll.fold_max_bot (Finset.univ : Finset (Fin n)) fun k => src (ix2 r k))
  have hf : (src ∘ h.lift (ix1 r)) = fun k : Fin n => src (ix2 r k) :=
    funext fun k => congrArg src (LibRowMax.lift_row h r k)
  exact congrArg (fun f => Finset.fold max (⊥ : EReal) f (Finset.univ : Finset (Fin n))) hf

/-- An [n, 1] column transposed to a [1, n] row: entry (0, j) of the row is entry (j, 0) of the column. -/
theorem transpose_col_apply {α : Type} {n : Nat} (v : (⟨2, ![n, 1]⟩ : Shape).Idx → α)
    (h : (⟨2, ![n, 1]⟩ : Shape).Transposes [1, 0] (⟨2, ![1, n]⟩ : Shape)) (z : Fin 1) (j : Fin n) (z' : Fin 1) :
    transpose ⟨2, ![1, n]⟩ [1, 0] v h (ix2 z j) = v (ix2 j z') := by
  refine transpose_apply [1, 0] v h (ix2 z j) (ix2 j z') fun b => ?_
  have hz : z.val = 0 := by have := z.isLt; omega
  have hz' : z'.val = 0 := by have := z'.isLt; omega
  match b with
  | ⟨0, _⟩ => show z'.val = z.val; omega
  | ⟨1, _⟩ => rfl

end Idealize.ShloMosaic.LibRowReduce

end
-- ==== Proof.Payloads.lean ====
/-
  What ONE grid point of each of the three kernels computes from the blocks it has loaded, at the ideal values, is
  the specification's function at the block's extents:

  * the first kernel's stored value is `dense` of its two blocks (rows times columns into the zero accumulator; the
    change of format before the product is the identity on extended reals);
  * the second kernel's is `biasReluDense`: the bias row [1, K] broadcast down the rows reads at (p, k) the row's
    entry (0, k), the sum and the maximum with the zero word are taken entry by entry, then rows times columns;
  * the third kernel's is `biasLogSoftmax`: the maximum over the second axis is the supremum of the row, kept as a
    column and broadcast back it is that supremum at every entry of the row; the sum over the second axis of the
    exponentials is the plain sum along the row, and its logarithm, kept as a column and broadcast back, is
    subtracted entry by entry.
-/
import proofs.«117805_j21320217657891_1_alg».proof.Proof.Gen.KernelIdeal.Skeleton
import proofs.«117805_j21320217657891_1_alg».proof.Proof.Spec
import proofs.«117805_j21320217657891_1_alg».proof.Proof.LibMatmulEntry
import proofs.«117805_j21320217657891_1_alg».proof.Proof.LibTrailAxis
import proofs.«117805_j21320217657891_1_alg».proof.Proof.LibRowReduce
import Idealize.ShloMosaic.Lib.ValueIdx
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- The first kernel: rows times columns of the two loaded blocks. -/
theorem pay0_eq (x0 : Vec Ideal S5000x96 .f32) (x1 : Vec Ideal S96x64 .f32) :
    k0_pay1 (F := Ideal) x0 x1 = Cert.Gcn.dense (M := 5000) (K := 96) (N := 64) x0 x1 := by
  funext j
  obtain ⟨p, q, rfl⟩ : ∃ (p : Fin 5000) (q : Fin 64), j = ix2 p q := ⟨j 0, j 1, eq_ix2 j⟩
  unfold k0_pay1
  refine (Ideal.matmul_rows_cols dot_S5000x96_S96x64_S5000x64_1_0_0_1_n_n rfl rfl rfl rfl rfl rfl none _ _ p q).trans ?_
  rfl

/-- A row [1, n] broadcast down `m` rows reads, at (i, j), the row's entry (0, j). -/
theorem broadcastTo_1b_ab_apply {α : Type} {m n : Nat} (v : (⟨2, ![1, n]⟩ : Shape).Idx → α)
    (h : (⟨2, ![1, n]⟩ : Shape).Broadcasts ⟨2, ![m, n]⟩) (i : Fin m) (j : Fin n) :
    broadcastTo ⟨2, ![m, n]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if n = 1 then 0 else j.val
    split
    · have := j.isLt; omega
    · rfl

/-- The second kernel: the bias row added to every row, negative entries cut to zero, then rows times columns. -/
theorem pay1_eq (x0 : Vec Ideal S5000x64 .f32) (x1 : Vec Ideal S1x64 .f32) (x2 : Vec Ideal S64x16 .f32) :
    k1_pay1 (F := Ideal) x0 x1 x2 = Cert.Gcn.biasReluDense (M := 5000) (K := 64) (N := 16) x0 x1 x2 := by
  funext j
  obtain ⟨p, q, rfl⟩ : ∃ (p : Fin 5000) (q : Fin 16), j = ix2 p q := ⟨j 0, j 1, eq_ix2 j⟩
  unfold k1_pay1
  refine (Ideal.matmul_rows_cols dot_S5000x64_S64x16_S5000x16_1_0_0_1_n_n rfl rfl rfl rfl rfl rfl none _ _ p q).trans ?_
  refine Finset.sum_congr rfl fun k _ => ?_
  -- the left factor at (p, k): the two casts are to the same shape, the bias row is read at (0, k)
  have e : (maximumf (addf (shapeCast S5000x64 x0 shapeCasts_S5000x64_S5000x64)
        (broadcastTo S5000x64 (shapeCast S1x64 x1 shapeCasts_S1x64_S1x64) broadcasts_S1x64_S5000x64))
      (broadcast S5000x64 (Scalar.ofBits .f32 0x00000000#32)) : FVec Ideal S5000x64 .f32) (ix2 p k)
      = Cert.Gcn.biasRelu x0 x1 p k := by
    rw [shapeCast_self, shapeCast_self]
    show max (x0 (ix2 p k) + broadcastTo S5000x64 x1 broadcasts_S1x64_S5000x64 (ix2 p k)) (Ideal.ofBits .f32 0x00000000#32)
      = max (x0 (ix2 p k) + x1 (ix2 (0 : Fin 1) k)) (Ideal.ofBits .f32 0x00000000#32)
    rw [broadcastTo_1b_ab_apply]
  exact congrArg (· * x2 (ix2 k q)) e

/-- A block [m, n] with the bias row [1, n] added to every row (both first cast to their own shapes), at (r, c). -/
theorem addBiasRow_apply {m n : Nat} (a : FVec Ideal ⟨2, ![m, n]⟩ .f32) (β : FVec Ideal ⟨2, ![1, n]⟩ .f32)
    (h1 : (⟨2, ![m, n]⟩ : Shape).ShapeCasts ⟨2, ![m, n]⟩) (h2 : (⟨2, ![1, n]⟩ : Shape).ShapeCasts ⟨2, ![1, n]⟩)
    (hb : (⟨2, ![1, n]⟩ : Shape).Broadcasts ⟨2, ![m, n]⟩) (r : Fin m) (c : Fin n) :
    addf (shapeCast ⟨2, ![m, n]⟩ a h1) (broadcastTo ⟨2, ![m, n]⟩ (shapeCast ⟨2, ![1, n]⟩ β h2) hb) (ix2 r c)
      = a (ix2 r c) + β (ix2 (0 : Fin 1) c) := by
  rw [shapeCast_self, shapeCast_self, addf_apply, broadcastTo_1b_ab_apply]

/-- An [m, n] array with the maximum of each row subtracted — the maximum over the second axis taken from `-∞`, kept
    as a column and broadcast back along the row — at (r, c). -/
theorem subRowMax_apply {m n : Nat} (t : FVec Ideal ⟨2, ![m, n]⟩ .f32)
    (hr : (⟨2, ![m, n]⟩ : Shape).Reduces [1] (⟨1, ![m]⟩ : Shape)) (hφ : FKind.Formats .f32)
    (hmax : (0xFF800000#32 : BitVec 32) = FKind.maximumf.neutral .f32 hφ)
    (hc : (⟨1, ![m]⟩ : Shape).ShapeCasts ⟨2, ![m, 1]⟩) (hb : (⟨2, ![m, 1]⟩ : Shape).Broadcasts ⟨2, ![m, n]⟩)
    (r : Fin m) (c : Fin n) :
    subf t (broadcastTo ⟨2, ![m, n]⟩
        (shapeCast ⟨2, ![m, 1]⟩ (multiReduction .maximumf [1] ⟨1, ![m]⟩ t 0xFF800000#32 hr hφ hmax) hc) hb) (ix2 r c)
      = t (ix2 r c) - Finset.univ.sup fun k : Fin n => t (ix2 r k) := by
  rw [subf_apply, Cert.TrailAxis.keepdims_col_apply, LibRowReduce.multiReduction_max_row]

/-- An [m, n] array with the logarithm of each row's sum of exponentials subtracted — the exponentials summed over the
    second axis, the logarithm of the sums kept as a column and broadcast back along the row — at (r, c). -/
theorem subLogSumExp_apply {m n : Nat} (u : FVec Ideal ⟨2, ![m, n]⟩ .f32)
    (hr : (⟨2, ![m, n]⟩ : Shape).Reduces [1] (⟨1, ![m]⟩ : Shape)) (hφ : FKind.Formats .f32)
    (hadd : (0x00000000#32 : BitVec 32) = 0x00000000#32)
    (hc : (⟨1, ![m]⟩ : Shape).ShapeCasts ⟨2, ![m, 1]⟩) (hb : (⟨2, ![m, 1]⟩ : Shape).Broadcasts ⟨2, ![m, n]⟩)
    (r : Fin m) (c : Fin n) :
    subf u (broadcastTo ⟨2, ![m, n]⟩
        (log (shapeCast ⟨2, ![m, 1]⟩ (multiReduction .add [1] ⟨1, ![m]⟩ (exp u) 0x00000000#32 hr hφ hadd) hc)) hb) (ix2 r c)
      = u (ix2 r c) - Ideal.log (∑ j : Fin n, Ideal.exp (u (ix2 r j))) := by
  rw [subf_apply, Cert.TrailAxis.broadcastTo_a1_ab_apply]
  show u (ix2 r c) - Ideal.log (shapeCast ⟨2, ![m, 1]⟩ (multiReduction .add [1] ⟨1, ![m]⟩ (exp u) 0x00000000#32 hr hφ hadd) hc
      (ix2 r (0 : Fin 1))) = _
  rw [Cert.TrailAxis.keepcol_apply, Cert.TrailAxis.sum_trail_apply]
  rfl

/-- The third kernel: the bias row added, then the logarithm of the softmax along each row. Written over the row
    `g c = x0[p, c] + x1[0, c]`, both sides are `(g q − sup g) − log Σ_j exp (g j − sup g)`. -/
theorem pay2_eq (x0 : Vec Ideal S5000x16 .f32) (x1 : Vec Ideal S1x16 .f32) :
    k2_pay1 (F := Ideal) x0 x1 = Cert.Gcn.biasLogSoftmax (M := 5000) (N := 16) x0 x1 := by
  funext j
  obtain ⟨p, q, rfl⟩ : ∃ (p : Fin 5000) (q : Fin 16), j = ix2 p q := ⟨j 0, j 1, eq_ix2 j⟩
  unfold k2_pay1
  -- the outer subtraction of the logarithm of the row's sum of exponentials
  refine (subLogSumExp_apply _ reduces_S5000x16_S5000 (.inl rfl) rfl shapeCasts_S5000_S5000x1
    broadcasts_S5000x1_S5000x16 p q).trans ?_
  -- the centred entries, at (p, c)
  have h9 := fun c : Fin 16 =>
    subRowMax_apply (addf (shapeCast S5000x16 x0 shapeCasts_S5000x16_S5000x16)
        (broadcastTo S5000x16 (shapeCast S1x16 x1 shapeCasts_S1x16_S1x16) broadcasts_S1x16_S5000x16))
      reduces_S5000x16_S5000 (.inl rfl) rfl shapeCasts_S5000_S5000x1 broadcasts_S5000x1_S5000x16 p c
  refine (congrArg₂ (fun (a : EReal) (f : Fin 16 → EReal) => a - Ideal.log (∑ j : Fin 16, Ideal.exp (f j)))
    (h9 q) (funext h9)).trans ?_
  -- the biased row
  have h5 : (fun c : Fin 16 => (addf (shapeCast S5000x16 x0 shapeCasts_S5000x16_S5000x16)
        (broadcastTo S5000x16 (shapeCast S1x16 x1 shapeCasts_S1x16_S1x16) broadcasts_S1x16_S5000x16)
          : FVec Ideal S5000x16 .f32) (ix2 p c))
      = fun c : Fin 16 => Cert.Gcn.biased x0 x1 p c :=
    funext fun c => addBiasRow_apply x0 x1 _ _ _ p c
  exact congrArg (fun g : Fin 16 → EReal =>
    (g q - Finset.univ.sup g) - Ideal.log (∑ j : Fin 16, Ideal.exp (g j - Finset.univ.sup g))) h5

end Cert.KernelIdeal.Hand

end
-- ==== Proof.HostPrefix.lean ====
/-
  The idealized kernel's host operations BEFORE its first pallas_call, read: from the edge array they compute the edge
  lists with the self-loops appended (sources and targets), the degree of every node, the inverse square roots of the
  degrees where positive, and the edge weights dinv[s]·dinv[d] — the same operations on the same operand as the
  reference's, so each buffer holds the reference's stage of the same meaning. They come as three stretches (the middle
  one the body of the selection `where`); each is read from ANY contents of the buffers it starts from.
-/
import proofs.«117805_j21320217657891_1_alg».proof.Proof.Gen.KernelIdeal.Launch
import proofs.«117805_j21320217657891_1_alg».proof.Proof.RefRead
import Idealize.ShloMosaic.Lib.StableHlo.Run

noncomputable section

open Idealize.ShloMosaic Idealize.ShloMosaic.TcCoe Idealize.SL.Sem Idealize.ShloMosaic.StableHlo

namespace Cert.KernelIdeal.Hand

open Cert.KernelIdeal Cert.KernelIdeal.Gen
open Cert.ReferenceIdeal.ReadP

variable (W : Valuation τ sig (Elt Ideal))
variable (x1 : (⟨Cert.ReferenceIdeal.S2x800000, .i32⟩ : BufTy).Contents (Elt Ideal))

/-- A buffer that no operation of a stretch writes keeps its contents through the stretch. -/
local macro "not_written" : tactic => `(tactic| (
  refine StableHlo.after_of_forall_not_mem (b := _) _ _ (List.forall_iff_forall_mem.mp ?_)
  simp only [hostOps0, hostOps0_1, hostOps0_2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-! ## The first stretch: edge lists, degrees, their inverse square roots -/

/-- The sources with the self-loops appended. -/
theorem pre0_v5 (h1 : W (Proc.devRef .tc main_arg1) = x1) :
    StableHlo.after hostOps0 W (Proc.devRef .tc main_v5) = val_main_v6 (F := Ideal) x1 := by
  dsimp only [hostOps0]; after_results; rw [h1]; rfl

/-- The targets with the self-loops appended. -/
theorem pre0_v6 (h1 : W (Proc.devRef .tc main_arg1) = x1) :
    StableHlo.after hostOps0 W (Proc.devRef .tc main_v6) = val_main_v7 (F := Ideal) x1 := by
  dsimp only [hostOps0]; after_results; rw [h1]; rfl

/-- Which nodes have a positive degree. -/
theorem pre0_v12 (h1 : W (Proc.devRef .tc main_arg1) = x1) :
    StableHlo.after hostOps0 W (Proc.devRef .tc main_v12) = val_main_v13 (F := Ideal) x1 := by
  dsimp only [hostOps0]; after_results; rw [h1]; rfl

/-- The inverse square root of each degree, the degree floored at a small positive word. -/
theorem pre0_v15 (h1 : W (Proc.devRef .tc main_arg1) = x1) :
    StableHlo.after hostOps0 W (Proc.devRef .tc main_v15) = val_main_v16 (F := Ideal) x1 := by
  dsimp only [hostOps0]; after_results; rw [h1]; rfl

/-- The zero the selection falls back to. -/
theorem pre0_cst3 : StableHlo.after hostOps0 W (Proc.devRef .tc main_cst_3) = val_main_cst_3 (F := Ideal) := by
  dsimp only [hostOps0]; after_results; rfl

/-! ## The second stretch: dinv = where(deg > 0, rsqrt(max(deg, ε)), 0) -/

theorem pre1_v16 (h12 : W (Proc.devRef .tc main_v12) = val_main_v13 (F := Ideal) x1)
    (h15 : W (Proc.devRef .tc main_v15) = val_main_v16 (F := Ideal) x1)
    (h3 : W (Proc.devRef .tc main_cst_3) = val_main_cst_3 (F := Ideal)) :
    StableHlo.after hostOps0_1 W (Proc.devRef .tc main_v16) = val_main_v17 (F := Ideal) x1 := by
  dsimp only [hostOps0_1]; after_results
  simp only [TRef.toBuf, TRef.ofBuf, cast_eq]
  rw [h12, h15, h3]; rfl

/-! ## The third stretch: the edge weights dinv[s] · dinv[d] -/

set_option maxHeartbeats 2000000 in
theorem pre2_v31 (h16 : W (Proc.devRef .tc main_v16) = val_main_v17 (F := Ideal) x1)
    (h5 : W (Proc.devRef .tc main_v5) = val_main_v6 (F := Ideal) x1)
    (h6 : W (Proc.devRef .tc main_v6) = val_main_v7 (F := Ideal) x1) :
    StableHlo.after hostOps0_2 W (Proc.devRef .tc main_v31) = val_main_v32 (F := Ideal) x1 := by
  dsimp only [hostOps0_2]; after_results; rw [h16, h5, h6]; rfl

/-! ## What the stretches leave alone -/

theorem pre1_keeps_v5 : StableHlo.after hostOps0_1 W (Proc.devRef .tc main_v5) = W (Proc.devRef .tc main_v5) := by not_written
theorem pre1_keeps_v6 : StableHlo.after hostOps0_1 W (Proc.devRef .tc main_v6) = W (Proc.devRef .tc main_v6) := by not_written
theorem pre2_keeps_v5 : StableHlo.after hostOps0_2 W (Proc.devRef .tc main_v5) = W (Proc.devRef .tc main_v5) := by not_written
theorem pre2_keeps_v6 : StableHlo.after hostOps0_2 W (Proc.devRef .tc main_v6) = W (Proc.devRef .tc main_v6) := by not_written

/-- An argument array passes through the three stretches untouched. -/
theorem pre_keeps_arg (r : Ref sig .tc)
    (hr : r = main_arg0 ∨ r = main_arg1 ∨ r = main_arg2 ∨ r = main_arg3 ∨ r = main_arg4 ∨ r = main_arg5) :
    StableHlo.after hostOps0_2 (StableHlo.after hostOps0_1 (StableHlo.after hostOps0 W)) (Proc.devRef .tc r) = W (Proc.devRef .tc r) := by
  rcases hr with rfl | rfl | rfl | rfl | rfl | rfl <;>
    exact (by not_written : StableHlo.after hostOps0_2 _ _ = _).trans
      ((by not_written : StableHlo.after hostOps0_1 _ _ = _).trans (by not_written))

/-- After the three stretches: sources, targets and edge weights of the edge array the buffers started with. -/
theorem pre_values (h1 : W (Proc.devRef .tc main_arg1) = x1) :
    StableHlo.after hostOps0_2 (StableHlo.after hostOps0_1 (StableHlo.after hostOps0 W)) (Proc.devRef .tc main_v5) = val_main_v6 (F := Ideal) x1
    ∧ StableHlo.after hostOps0_2 (StableHlo.after hostOps0_1 (StableHlo.after hostOps0 W)) (Proc.devRef .tc main_v6) = val_main_v7 (F := Ideal) x1
    ∧ StableHlo.after hostOps0_2 (StableHlo.after hostOps0_1 (StableHlo.after hostOps0 W)) (Proc.devRef .tc main_v31) = val_main_v32 (F := Ideal) x1 := by
  have a5 := (pre1_keeps_v5 (StableHlo.after hostOps0 W)).trans (pre0_v5 W x1 h1)
  have a6 := (pre1_keeps_v6 (StableHlo.after hostOps0 W)).trans (pre0_v6 W x1 h1)
  have a16 := pre1_v16 (StableHlo.after hostOps0 W) x1 (pre0_v12 W x1 h1) (pre0_v15 W x1 h1) (pre0_cst3 W)
  exact ⟨(pre2_keeps_v5 _).trans a5, (pre2_keeps_v6 _).trans a6, pre2_v31 _ x1 a16 a5 a6⟩

end Cert.KernelIdeal.Hand

end
-- ==== Proof.HostStretches.lean ====
/-
  The two stretches of host operations between the three grid computations. Each stretch, run from ANY buffer contents
  whose relevant buffers hold the reference's stages — the previous product, the source list, the target list and the
  edge weights —, gathers the product's rows at the sources (negative indices wrapped), multiplies each gathered row by
  its edge weight, and adds the rows into zeros at the targets: operation for operation the reference's own
  aggregation stage, so the two terms over the same leaves are one term. Each stretch also recasts a bias vector [n]
  as a row [1, n], entry k of the vector at (0, k), and leaves alone every buffer it does not write.
-/
import proofs.«117805_j21320217657891_1_alg».proof.Proof.Gen.KernelIdeal.Launch
import proofs.«117805_j21320217657891_1_alg».proof.Proof.RefRead
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Cert.ReferenceIdeal.ReadP Idealize.ShloMosaic Idealize.ShloMosaic.TcCoe
  Idealize.ShloMosaic.StableHlo Idealize.ShloMosaic.ValueIdx

variable (W : Valuation τ sig (Elt Ideal))

set_option maxHeartbeats 400000 in
/-- The first stretch's aggregation is the reference's first aggregation stage. -/
theorem stretch1_v45 (x0 : (⟨Cert.ReferenceIdeal.S50000x96, .f32⟩ : BufTy).Contents (Elt Ideal))
    (x1 : (⟨Cert.ReferenceIdeal.S2x800000, .i32⟩ : BufTy).Contents (Elt Ideal))
    (x2 : (⟨Cert.ReferenceIdeal.S96x64, .f32⟩ : BufTy).Contents (Elt Ideal))
    (h32 : W (Proc.devRef .tc main_v32) = val_main_v4 (F := Ideal) x0 x2)
    (h5 : W (Proc.devRef .tc main_v5) = val_main_v6 (F := Ideal) x1)
    (h6 : W (Proc.devRef .tc main_v6) = val_main_v7 (F := Ideal) x1)
    (h31 : W (Proc.devRef .tc main_v31) = val_main_v32 (F := Ideal) x1) :
    StableHlo.after hostOps1 W (Proc.devRef .tc main_v45) = val_main_v45 (F := Ideal) x0 x1 x2 := by
  dsimp only [hostOps1]
  after_results
  rw [h32, h5, h6, h31]
  rfl

set_option maxHeartbeats 400000 in
/-- The first stretch's bias row: entry k of the vector at (0, k). -/
theorem stretch1_v46 (k : Fin 64) :
    (StableHlo.after hostOps1 W (Proc.devRef .tc main_v46) : S1x64.Idx → EReal) (ix2 (0 : Fin 1) k)
      = (W (Proc.devRef .tc main_arg3) : S64.Idx → EReal) (ix1 k) := by
  dsimp only [hostOps1]
  after_results
  refine shapeCast_apply (s := S64) (t := S1x64) (W (Proc.devRef .tc main_arg3)) shapeCasts_S64_S1x64 (ix2 (0 : Fin 1) k) (ix1 k) ?_
  rw [Shape.rowMajor_val_two, Shape.rowMajor_val_one]
  show k.val = 0 * 64 + k.val
  omega

set_option maxHeartbeats 400000 in
/-- The second stretch's aggregation is the reference's second aggregation stage; the reference builds the edge lists
    and weights a second time, and the second copies are the first. -/
theorem stretch2_v60 (x0 : (⟨Cert.ReferenceIdeal.S50000x96, .f32⟩ : BufTy).Contents (Elt Ideal))
    (x1 : (⟨Cert.ReferenceIdeal.S2x800000, .i32⟩ : BufTy).Contents (Elt Ideal))
    (x2 : (⟨Cert.ReferenceIdeal.S96x64, .f32⟩ : BufTy).Contents (Elt Ideal))
    (x3 : (⟨Cert.ReferenceIdeal.S64, .f32⟩ : BufTy).Contents (Elt Ideal))
    (x4 : (⟨Cert.ReferenceIdeal.S64x16, .f32⟩ : BufTy).Contents (Elt Ideal))
    (e52 : val_main_v52 (F := Ideal) x1 = val_main_v6 (F := Ideal) x1)
    (e53 : val_main_v53 (F := Ideal) x1 = val_main_v7 (F := Ideal) x1)
    (e78 : val_main_v78 (F := Ideal) x1 = val_main_v32 (F := Ideal) x1)
    (h47 : W (Proc.devRef .tc main_v47) = val_main_v50 (F := Ideal) x0 x1 x2 x3 x4)
    (h5 : W (Proc.devRef .tc main_v5) = val_main_v6 (F := Ideal) x1)
    (h6 : W (Proc.devRef .tc main_v6) = val_main_v7 (F := Ideal) x1)
    (h31 : W (Proc.devRef .tc main_v31) = val_main_v32 (F := Ideal) x1) :
    StableHlo.after hostOps2 W (Proc.devRef .tc main_v60) = val_main_v91 (F := Ideal) x0 x1 x2 x3 x4 := by
  dsimp only [hostOps2]
  after_results
  rw [h47, h5, h6, h31, ← e52, ← e53, ← e78]
  rfl

set_option maxHeartbeats 400000 in
/-- The second stretch's bias row: entry j of the vector at (0, j). -/
theorem stretch2_v61 (j : Fin 16) :
    (StableHlo.after hostOps2 W (Proc.devRef .tc main_v61) : S1x16.Idx → EReal) (ix2 (0 : Fin 1) j)
      = (W (Proc.devRef .tc main_arg5) : S16.Idx → EReal) (ix1 j) := by
  dsimp only [hostOps2]
  after_results
  refine shapeCast_apply (s := S16) (t := S1x16) (W (Proc.devRef .tc main_arg5)) shapeCasts_S16_S1x16 (ix2 (0 : Fin 1) j) (ix1 j) ?_
  rw [Shape.rowMajor_val_two, Shape.rowMajor_val_one]
  show j.val = 0 * 16 + j.val
  omega

set_option maxHeartbeats 400000 in
/-- The first stretch writes none of the later layers' weights and bias, nor the edge lists and weights. -/
theorem stretch1_keeps (r : Ref sig .tc)
    (hr : r = main_arg4 ∨ r = main_arg5 ∨ r = main_v5 ∨ r = main_v6 ∨ r = main_v31) :
    StableHlo.after hostOps1 W (Proc.devRef .tc r) = W (Proc.devRef .tc r) := by
  refine StableHlo.after_of_forall_not_mem (b := Proc.devRef .tc r) _ _ (List.forall_iff_forall_mem.mp ?_)
  rcases hr with rfl | rfl | rfl | rfl | rfl <;>
  · simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

set_option maxHeartbeats 400000 in
/-- The second stretch writes neither the last bias nor the edge lists and weights. -/
theorem stretch2_keeps (r : Ref sig .tc) (hr : r = main_arg5 ∨ r = main_v5 ∨ r = main_v6 ∨ r = main_v31) :
    StableHlo.after hostOps2 W (Proc.devRef .tc r) = W (Proc.devRef .tc r) := by
  refine StableHlo.after_of_forall_not_mem (b := Proc.devRef .tc r) _ _ (List.forall_iff_forall_mem.mp ?_)
  rcases hr with rfl | rfl | rfl | rfl <;>
  · simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)

end Cert.KernelIdeal.Hand

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«117805_j21320217657891_1_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.RefStages.lean ====
/-
  Three dense stages of the reference program are the specification's functions of the stage before, at the ideal
  values, and the reference's second copies of the edge lists and of the edge weights are its first copies.

  * the first product x · W1 is `dense x W1`;
  * the second product, of max (agg1 + b1) 0 with W2, is `biasReluDense agg1 b1 W2`, where agg1 is the first
    aggregation (kept as it stands: both sides name it) and b1 is read as a one-row array;
  * the logarithm of the softmax of agg2 + b2 along each row is `biasLogSoftmax agg2 b2`: the row maximum started
    from -∞ is the supremum of the row, the further maximum with -∞ changes nothing, and the sum started from the
    zero word is the plain sum;
  * the program builds the edge lists with the self-loops appended, the degrees, their inverse square roots and the
    edge weights once per layer from the same operands by the same operations: the second copies equal the first,
    one operation at a time.
-/
import proofs.«117805_j21320217657891_1_alg».proof.Proof.RefRead
import proofs.«117805_j21320217657891_1_alg».proof.Proof.Spec
import proofs.«117805_j21320217657891_1_alg».proof.Proof.LibDotGeneralEntry
import proofs.«117805_j21320217657891_1_alg».proof.Proof.LibRowMax
import Idealize.ShloMosaic.PureOps.Ideal
import Idealize.ShloMosaic.PureOps.Ideal.Laws
import Idealize.ShloMosaic.Lib.ValueIdx

noncomputable section

open scoped BigOperators

namespace Cert.ReferenceIdeal.Hand

open Cert.ReferenceIdeal Cert.ReferenceIdeal.Gen Cert.ReferenceIdeal.ReadP Idealize.ShloMosaic Idealize.ShloMosaic.ValueIdx

/-- The first product: entry (p, q) of x · W1 is Σ_k x[p, k] · W1[k, q]. -/
theorem v4_eq (x0 : (⟨S50000x96, .f32⟩ : BufTy).Contents (Elt Ideal)) (x2 : (⟨S96x64, .f32⟩ : BufTy).Contents (Elt Ideal)) :
    val_main_v4 (F := Ideal) x0 x2 = Cert.Gcn.dense (M := 50000) (K := 96) (N := 64) x0 x2 := by
  funext i
  obtain ⟨p, q, rfl⟩ : ∃ (p : Fin 50000) (q : Fin 64), i = ix2 p q := ⟨i 0, i 1, eq_ix2 i⟩
  unfold val_main_v4
  exact Ideal.dotGeneral_rows_cols dot_S50000x96_S96x64_S50000x64_1_0_0_1_n_n rfl rfl rfl rfl rfl rfl none .single x0 x2 p q

/-- The second product: the bias row is b1 read at the column, the cut at zero is the maximum with the zero word, and
    entry (p, q) of the product is the sum over the 64 hidden features. The first aggregation stays as it stands. -/
theorem v50_eq (x0 : (⟨S50000x96, .f32⟩ : BufTy).Contents (Elt Ideal)) (x1 : (⟨S2x800000, .i32⟩ : BufTy).Contents (Elt Ideal))
    (x2 : (⟨S96x64, .f32⟩ : BufTy).Contents (Elt Ideal)) (x3 : (⟨S64, .f32⟩ : BufTy).Contents (Elt Ideal))
    (x4 : (⟨S64x16, .f32⟩ : BufTy).Contents (Elt Ideal)) (β : FVec Ideal ⟨2, ![1, 64]⟩ .f32)
    (hβ : ∀ k : Fin 64, β (ix2 (0 : Fin 1) k) = x3 (ix1 k)) :
    val_main_v50 (F := Ideal) x0 x1 x2 x3 x4
      = Cert.Gcn.biasReluDense (M := 50000) (K := 64) (N := 16) (val_main_v45 (F := Ideal) x0 x1 x2) β x4 := by
  funext i
  obtain ⟨p, q, rfl⟩ : ∃ (p : Fin 50000) (q : Fin 16), i = ix2 p q := ⟨i 0, i 1, eq_ix2 i⟩
  unfold val_main_v50
  refine (Ideal.dotGeneral_rows_cols dot_S50000x64_S64x16_S50000x16_1_0_0_1_n_n rfl rfl rfl rfl rfl rfl none .single
    (val_main_v49 (F := Ideal) x0 x1 x2 x3) x4 p q).trans ?_
  show ∑ k : Fin 64, val_main_v49 (F := Ideal) x0 x1 x2 x3 (ix2 p k) * x4 (ix2 k q)
    = ∑ k : Fin 64, Cert.Gcn.biasRelu (val_main_v45 (F := Ideal) x0 x1 x2) β p k * x4 (ix2 k q)
  refine Finset.sum_congr rfl fun k _ => congrArg (· * x4 (ix2 k q)) ?_
  have e : idx_main_v46 (idx_main_v47 (ix2 p k)) = ix1 k := funext fun a => by
    match a with | ⟨0, _⟩ => rfl
  rw [val_main_v49_apply, val_main_v48_apply, val_main_v47_apply, val_main_v46_apply, val_main_call1_v0_apply,
    val_main_call1_cst_apply, Ideal.maximumf_def, Ideal.addf_def, Ideal.ofBits_def, e]
  unfold Cert.Gcn.biasRelu
  rw [hβ k]

/-! ## The second copies are the first copies

The program builds, once per layer, the edge lists with the self-loops appended, the degrees, their inverse square roots
and the edge weights, from the same operands by the same operations. One operation at a time: each second copy unfolds to
the same operation as the first, applied to operands already shown equal. -/

section Copies

variable {F : FTy → Type} [FloatOps F]

theorem v51_eq : val_main_v51 (F := F) = val_main_v5 (F := F) := by
  unfold val_main_v51 val_main_v5
  rfl

/-- The sources with the self-loops appended: the second copy is the first. -/
theorem v52_eq (x1 : (⟨S2x800000, .i32⟩ : BufTy).Contents (Elt F)) : val_main_v52 (F := F) x1 = val_main_v6 (F := F) x1 := by
  unfold val_main_v52 val_main_v6
  rw [v51_eq]

/-- The targets with the self-loops appended: the second copy is the first. -/
theorem v53_eq (x1 : (⟨S2x800000, .i32⟩ : BufTy).Contents (Elt F)) : val_main_v53 (F := F) x1 = val_main_v7 (F := F) x1 := by
  unfold val_main_v53 val_main_v7
  rw [v51_eq]

theorem cst_10_eq : val_main_cst_10 (F := F) = val_main_cst (F := F) := by
  unfold val_main_cst_10 val_main_cst
  rfl

theorem v54_eq : val_main_v54 (F := F) = val_main_v8 (F := F) := by
  unfold val_main_v54 val_main_v8
  rw [cst_10_eq]

theorem cst_11_eq : val_main_cst_11 (F := F) = val_main_cst_0 (F := F) := by
  unfold val_main_cst_11 val_main_cst_0
  rfl

theorem v55_eq : val_main_v55 (F := F) = val_main_v9 (F := F) := by
  unfold val_main_v55 val_main_v9
  rw [cst_11_eq]

theorem v56_eq (x1 : (⟨S2x800000, .i32⟩ : BufTy).Contents (Elt F)) : val_main_v56 (F := F) x1 = val_main_v10 (F := F) x1 := by
  unfold val_main_v56 val_main_v10
  rw [v53_eq x1]

/-- The degrees (one added per edge into the target): the second copy is the first. -/
theorem v57_eq (x1 : (⟨S2x800000, .i32⟩ : BufTy).Contents (Elt F)) : val_main_v57 (F := F) x1 = val_main_v11 (F := F) x1 := by
  unfold val_main_v57 val_main_v11
  rw [v55_eq, v56_eq x1, v54_eq]

theorem cst_12_eq : val_main_cst_12 (F := F) = val_main_cst_1 (F := F) := by
  unfold val_main_cst_12 val_main_cst_1
  rfl

theorem v58_eq : val_main_v58 (F := F) = val_main_v12 (F := F) := by
  unfold val_main_v58 val_main_v12
  rw [cst_12_eq]

theorem v59_eq (x1 : (⟨S2x800000, .i32⟩ : BufTy).Contents (Elt F)) : val_main_v59 (F := F) x1 = val_main_v13 (F := F) x1 := by
  unfold val_main_v59 val_main_v13
  rw [v57_eq x1, v58_eq]

theorem cst_13_eq : val_main_cst_13 (F := F) = val_main_cst_2 (F := F) := by
  unfold val_main_cst_13 val_main_cst_2
  rfl

theorem v60_eq : val_main_v60 (F := F) = val_main_v14 (F := F) := by
  unfold val_main_v60 val_main_v14
  rw [cst_13_eq]

theorem v61_eq (x1 : (⟨S2x800000, .i32⟩ : BufTy).Contents (Elt F)) : val_main_v61 (F := F) x1 = val_main_v15 (F := F) x1 := by
  unfold val_main_v61 val_main_v15
  rw [v57_eq x1, v60_eq]

theorem v62_eq (x1 : (⟨S2x800000, .i32⟩ : BufTy).Contents (Elt F)) : val_main_v62 (F := F) x1 = val_main_v16 (F := F) x1 := by
  unfold val_main_v62 val_main_v16
  rw [v61_eq x1]

theorem cst_14_eq : val_main_cst_14 (F := F) = val_main_cst_3 (F := F) := by
  unfold val_main_cst_14 val_main_cst_3
  rfl

theorem call2_v0_eq : val_main_call2_v0 (F := F) = val_main_call0_v0 (F := F) := by
  unfold val_main_call2_v0 val_main_call0_v0
  rw [cst_14_eq]

theorem call2_v1_eq : val_main_call2_v1 (F := F) = val_main_call0_v1 (F := F) := by
  unfold val_main_call2_v1 val_main_call0_v1
  rw [call2_v0_eq]

/-- The inverse square roots of the degrees, zero where the degree is zero: the second copy is the first. -/
theorem v63_eq (x1 : (⟨S2x800000, .i32⟩ : BufTy).Contents (Elt F)) : val_main_v63 (F := F) x1 = val_main_v17 (F := F) x1 := by
  unfold val_main_v63 val_main_v17
  rw [v59_eq x1, v62_eq x1, call2_v1_eq]

theorem c_15_eq : val_main_c_15 (F := F) = val_main_c (F := F) := by
  unfold val_main_c_15 val_main_c
  rfl

theorem v64_eq : val_main_v64 (F := F) = val_main_v18 (F := F) := by
  unfold val_main_v64 val_main_v18
  rw [c_15_eq]

theorem v65_eq (x1 : (⟨S2x800000, .i32⟩ : BufTy).Contents (Elt F)) : val_main_v65 (F := F) x1 = val_main_v19 (F := F) x1 := by
  unfold val_main_v65 val_main_v19
  rw [v52_eq x1, v64_eq]

theorem c_16_eq : val_main_c_16 (F := F) = val_main_c_4 (F := F) := by
  unfold val_main_c_16 val_main_c_4
  rfl

theorem v66_eq : val_main_v66 (F := F) = val_main_v20 (F := F) := by
  unfold val_main_v66 val_main_v20
  rw [c_16_eq]

theorem v67_eq (x1 : (⟨S2x800000, .i32⟩ : BufTy).Contents (Elt F)) : val_main_v67 (F := F) x1 = val_main_v21 (F := F) x1 := by
  unfold val_main_v67 val_main_v21
  rw [v52_eq x1, v66_eq]

theorem v68_eq (x1 : (⟨S2x800000, .i32⟩ : BufTy).Contents (Elt F)) : val_main_v68 (F := F) x1 = val_main_v22 (F := F) x1 := by
  unfold val_main_v68 val_main_v22
  rw [v65_eq x1, v67_eq x1, v52_eq x1]

theorem v69_eq (x1 : (⟨S2x800000, .i32⟩ : BufTy).Contents (Elt F)) : val_main_v69 (F := F) x1 = val_main_v23 (F := F) x1 := by
  unfold val_main_v69 val_main_v23
  rw [v68_eq x1]

theorem v70_eq (x1 : (⟨S2x800000, .i32⟩ : BufTy).Contents (Elt F)) : val_main_v70 (F := F) x1 = val_main_v24 (F := F) x1 := by
  unfold val_main_v70 val_main_v24
  rw [v63_eq x1, v69_eq x1]

theorem c_17_eq : val_main_c_17 (F := F) = val_main_c_5 (F := F) := by
  unfold val_main_c_17 val_main_c_5
  rfl

theorem v71_eq : val_main_v71 (F := F) = val_main_v25 (F := F) := by
  unfold val_main_v71 val_main_v25
  rw [c_17_eq]

theorem v72_eq (x1 : (⟨S2x800000, .i32⟩ : BufTy).Contents (Elt F)) : val_main_v72 (F := F) x1 = val_main_v26 (F := F) x1 := by
  unfold val_main_v72 val_main_v26
  rw [v53_eq x1, v71_eq]

theorem c_18_eq : val_main_c_18 (F := F) = val_main_c_6 (F := F) := by
  unfold val_main_c_18 val_main_c_6
  rfl

theorem v73_eq : val_main_v73 (F := F) = val_main_v27 (F := F) := by
  unfold val_main_v73 val_main_v27
  rw [c_18_eq]

theorem v74_eq (x1 : (⟨S2x800000, .i32⟩ : BufTy).Contents (Elt F)) : val_main_v74 (F := F) x1 = val_main_v28 (F := F) x1 := by
  unfold val_main_v74 val_main_v28
  rw [v53_eq x1, v73_eq]

theorem v75_eq (x1 : (⟨S2x800000, .i32⟩ : BufTy).Contents (Elt F)) : val_main_v75 (F := F) x1 = val_main_v29 (F := F) x1 := by
  unfold val_main_v75 val_main_v29
  rw [v72_eq x1, v74_eq x1, v53_eq x1]

theorem v76_eq (x1 : (⟨S2x800000, .i32⟩ : BufTy).Contents (Elt F)) : val_main_v76 (F := F) x1 = val_main_v30 (F := F) x1 := by
  unfold val_main_v76 val_main_v30
  rw [v75_eq x1]

theorem v77_eq (x1 : (⟨S2x800000, .i32⟩ : BufTy).Contents (Elt F)) : val_main_v77 (F := F) x1 = val_main_v31 (F := F) x1 := by
  unfold val_main_v77 val_main_v31
  rw [v63_eq x1, v76_eq x1]

/-- The edge weights dinv[s] · dinv[d]: the second copy is the first. -/
theorem v78_eq (x1 : (⟨S2x800000, .i32⟩ : BufTy).Contents (Elt F)) : val_main_v78 (F := F) x1 = val_main_v32 (F := F) x1 := by
  unfold val_main_v78 val_main_v32
  rw [v70_eq x1, v77_eq x1]

end Copies

/-! ## The logarithm of the softmax

Read one entry at a time: the biased logits, the row maximum, the shifted logits, the row's sum of exponentials, and
last the entry of the result. The second aggregation stays as it stands throughout. -/

/-- The logits with the bias row added: entry (p, k) is agg2[p, k] + b2[k]. -/
theorem v94_entry (x0 : (⟨S50000x96, .f32⟩ : BufTy).Contents (Elt Ideal)) (x1 : (⟨S2x800000, .i32⟩ : BufTy).Contents (Elt Ideal))
    (x2 : (⟨S96x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal))
    (β : FVec Ideal ⟨2, ![1, 16]⟩ .f32) (hβ : ∀ j : Fin 16, β (ix2 (0 : Fin 1) j) = x5 (ix1 j)) (p : Fin 50000) (k : Fin 16) :
    val_main_v94 (F := Ideal) x0 x1 x2 x3 x4 x5 (ix2 p k) = Cert.Gcn.biased (val_main_v91 (F := Ideal) x0 x1 x2 x3 x4) β p k := by
  have e : idx_main_v92 (idx_main_v93 (ix2 p k)) = ix1 k := funext fun a => by
    match a with | ⟨0, _⟩ => rfl
  rw [val_main_v94_apply, val_main_v93_apply, val_main_v92_apply, Ideal.addf_def, e]
  unfold Cert.Gcn.biased
  rw [hβ k]

/-- The row maximum: the fold of max over a row started from -∞ is the supremum of the row, and the further maximum
    with -∞ changes nothing. -/
theorem call3_v2_entry (x0 : (⟨S50000x96, .f32⟩ : BufTy).Contents (Elt Ideal)) (x1 : (⟨S2x800000, .i32⟩ : BufTy).Contents (Elt Ideal))
    (x2 : (⟨S96x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal))
    (β : FVec Ideal ⟨2, ![1, 16]⟩ .f32) (hβ : ∀ j : Fin 16, β (ix2 (0 : Fin 1) j) = x5 (ix1 j)) (p : Fin 50000) :
    val_main_call3_v2 (F := Ideal) x0 x1 x2 x3 x4 x5 (ix1 p) = Cert.Gcn.rowMax (val_main_v91 (F := Ideal) x0 x1 x2 x3 x4) β p := by
  have hb : Ideal.ofBits .f32 0xFF800000#32 = (⊥ : EReal) := QuantLayer.wninf_eq
  have h0 : val_main_call3_v0 (F := Ideal) x0 x1 x2 x3 x4 x5 (ix1 p)
      = Finset.univ.sup fun k : Fin 16 => val_main_v94 (F := Ideal) x0 x1 x2 x3 x4 x5 (ix2 p k) := by
    unfold val_main_call3_v0
    exact LibRowMax.hostReduce_max_row (val_main_v94 (F := Ideal) x0 x1 x2 x3 x4 x5) (val_main_call3_cst (F := Ideal))
      reducesTo_S50000x16_S50000_d1 (by decide) h_S_ hb p
  rw [val_main_call3_v2_apply, val_main_call3_v1_apply, val_main_call3_cst_0_apply, Ideal.maximumf_def, Ideal.ofBits_def,
    hb, h0]
  refine (max_eq_right bot_le).trans ?_
  unfold Cert.Gcn.rowMax
  exact congrArg _ (funext fun k => v94_entry x0 x1 x2 x3 x4 x5 β hβ p k)

/-- The shifted logits: entry (p, k) is the biased logit less its row's maximum. -/
theorem call3_v5_entry (x0 : (⟨S50000x96, .f32⟩ : BufTy).Contents (Elt Ideal)) (x1 : (⟨S2x800000, .i32⟩ : BufTy).Contents (Elt Ideal))
    (x2 : (⟨S96x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal))
    (β : FVec Ideal ⟨2, ![1, 16]⟩ .f32) (hβ : ∀ j : Fin 16, β (ix2 (0 : Fin 1) j) = x5 (ix1 j)) (p : Fin 50000) (k : Fin 16) :
    val_main_call3_v5 (F := Ideal) x0 x1 x2 x3 x4 x5 (ix2 p k)
      = Cert.Gcn.biased (val_main_v91 (F := Ideal) x0 x1 x2 x3 x4) β p k - Cert.Gcn.rowMax (val_main_v91 (F := Ideal) x0 x1 x2 x3 x4) β p := by
  have e : idx_main_call3_v3 (idx_main_call3_v4 (ix2 p k)) = ix1 p := funext fun a => by
    match a with | ⟨0, _⟩ => rfl
  rw [val_main_call3_v5_apply, val_main_call3_v4_apply, val_main_call3_v3_apply, Ideal.subf_def, e,
    v94_entry x0 x1 x2 x3 x4 x5 β hβ p k, call3_v2_entry x0 x1 x2 x3 x4 x5 β hβ p]

/-- The sum of the exponentials of the shifted logits of a row: the sum started from the zero word is the plain sum. -/
theorem call3_v7_entry (x0 : (⟨S50000x96, .f32⟩ : BufTy).Contents (Elt Ideal)) (x1 : (⟨S2x800000, .i32⟩ : BufTy).Contents (Elt Ideal))
    (x2 : (⟨S96x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal))
    (β : FVec Ideal ⟨2, ![1, 16]⟩ .f32) (hβ : ∀ j : Fin 16, β (ix2 (0 : Fin 1) j) = x5 (ix1 j)) (p : Fin 50000) :
    val_main_call3_v7 (F := Ideal) x0 x1 x2 x3 x4 x5 (ix1 p)
      = ∑ j : Fin 16, Ideal.exp (Cert.Gcn.biased (val_main_v91 (F := Ideal) x0 x1 x2 x3 x4) β p j - Cert.Gcn.rowMax (val_main_v91 (F := Ideal) x0 x1 x2 x3 x4) β p) := by
  rw [val_main_call3_v7_apply, val_main_call3_cst_1_apply, Ideal.ofBits_def, Ideal.ofBits_zero_f32, zero_add]
  refine Finset.sum_congr rfl fun j _ => ?_
  have e : idx_main_call3_v7 (ix1 p) j = ix2 p j := funext fun a => by
    match a with | ⟨0, _⟩ => rfl | ⟨1, _⟩ => rfl
  rw [e, val_main_call3_v6_apply, Ideal.hostUnary_exp_def, call3_v5_entry x0 x1 x2 x3 x4 x5 β hβ p j]

/-- The logarithm of the softmax of agg2 + b2 along each row. -/
theorem v95_eq (x0 : (⟨S50000x96, .f32⟩ : BufTy).Contents (Elt Ideal)) (x1 : (⟨S2x800000, .i32⟩ : BufTy).Contents (Elt Ideal))
    (x2 : (⟨S96x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal))
    (β : FVec Ideal ⟨2, ![1, 16]⟩ .f32) (hβ : ∀ j : Fin 16, β (ix2 (0 : Fin 1) j) = x5 (ix1 j)) :
    val_main_v95 (F := Ideal) x0 x1 x2 x3 x4 x5
      = Cert.Gcn.biasLogSoftmax (M := 50000) (N := 16) (val_main_v91 (F := Ideal) x0 x1 x2 x3 x4) β := by
  funext i
  obtain ⟨p, q, rfl⟩ : ∃ (p : Fin 50000) (q : Fin 16), i = ix2 p q := ⟨i 0, i 1, eq_ix2 i⟩
  have e : idx_main_call3_v8 (idx_main_call3_v10 (ix2 p q)) = ix1 p := funext fun a => by
    match a with | ⟨0, _⟩ => rfl
  rw [val_main_v95_apply, val_main_call3_v10_apply, val_main_call3_v9_apply, val_main_call3_v8_apply, Ideal.subf_def,
    Ideal.hostUnary_log_def, e, call3_v5_entry x0 x1 x2 x3 x4 x5 β hβ p q, call3_v7_entry x0 x1 x2 x3 x4 x5 β hβ p]
  rfl

end Cert.ReferenceIdeal.Hand

end
-- ==== Proof.KernelValue.lean ====
/-
  What the idealized kernel's result array ends holding: the last stage of the reference, of the launch contents of the
  argument arrays.

  The run's last boundary (`Gen.W8`) is a fold from the launch memory: three stretches of host operations (edge lists,
  degrees, edge weights), the first pallas_call (x @ W1), a stretch (gather at the sources, weigh, scatter-add at the
  targets; the bias as a row), the second pallas_call (relu(· + b1) @ W2), the same stretch again, the third
  pallas_call (log_softmax(· + b2)). Read segment by segment: each host stretch computes the reference's stage from
  the reference's stages before it, each pallas_call leaves the whole-array function of the arrays it was entered
  with, and that function of the reference's stage is the reference's next stage.
-/
import proofs.«117805_j21320217657891_1_alg».proof.Proof.Gen.KernelIdeal.Frame
import proofs.«117805_j21320217657891_1_alg».proof.Proof.Region0
import proofs.«117805_j21320217657891_1_alg».proof.Proof.Region1
import proofs.«117805_j21320217657891_1_alg».proof.Proof.Region2
import proofs.«117805_j21320217657891_1_alg».proof.Proof.Payloads
import proofs.«117805_j21320217657891_1_alg».proof.Proof.HostPrefix
import proofs.«117805_j21320217657891_1_alg».proof.Proof.HostStretches
import proofs.«117805_j21320217657891_1_alg».proof.Proof.RefStages

set_option maxRecDepth 16384

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen Cert.Gcn Idealize.ShloMosaic.ValueIdx
open Cert.ReferenceIdeal.ReadP Cert.ReferenceIdeal.Hand

variable (m : (ℓ : Loc nD τ sig) → Buf (Elt Ideal) ℓ) (ρ : Dev nD → PrngReg) (c : Dev nD)

/-! ## Up to the first pallas_call -/

/-- The argument arrays reach the first pallas_call as launched. -/
theorem W3_arg (r : Ref sig .tc)
    (hr : r = main_arg0 ∨ r = main_arg1 ∨ r = main_arg2 ∨ r = main_arg3 ∨ r = main_arg4 ∨ r = main_arg5) :
    W3 m ρ c (Proc.devRef .tc r) = m ((c : Thread nD τ).loc r) :=
  (pre_keeps_arg (W0 m ρ c) r hr).trans rfl

/-- Sources, targets and edge weights when the first pallas_call is entered. -/
theorem W3_vals : W3 m ρ c (Proc.devRef .tc main_v5) = val_main_v6 (F := Ideal) (m ((c : Thread nD τ).loc main_arg1))
    ∧ W3 m ρ c (Proc.devRef .tc main_v6) = val_main_v7 (F := Ideal) (m ((c : Thread nD τ).loc main_arg1))
    ∧ W3 m ρ c (Proc.devRef .tc main_v31) = val_main_v32 (F := Ideal) (m ((c : Thread nD τ).loc main_arg1)) :=
  pre_values (W0 m ρ c) (m ((c : Thread nD τ).loc main_arg1)) rfl

/-! ## The first pallas_call and the stretch after it -/

/-- The first pallas_call leaves x @ W1. -/
theorem W4_v32 : W4 m ρ c (Proc.devRef .tc main_v32) = val_main_v4 (F := Ideal) (m ((c : Thread nD τ).loc main_arg0)) (m ((c : Thread nD τ).loc main_arg2)) := by
  refine (W4_arr m ρ c 2).trans ((final0 (V3 m ρ) pay0_eq c).trans ?_)
  rw [show V3 m ρ c main_arg0 = (m ((c : Thread nD τ).loc main_arg0)) from W3_arg m ρ c main_arg0 (by simp),
    show V3 m ρ c main_arg2 = (m ((c : Thread nD τ).loc main_arg2)) from W3_arg m ρ c main_arg2 (by simp)]
  exact (v4_eq (m ((c : Thread nD τ).loc main_arg0)) (m ((c : Thread nD τ).loc main_arg2))).symm

/-- A buffer the first pallas_call does not own passes through it. -/
theorem W4_keeps (r : Ref sig .tc) (hr : ∀ w, Pipeline.arrRef spec0 w ≠ r) :
    W4 m ρ c (Proc.devRef .tc r) = W3 m ρ c (Proc.devRef .tc r) := W4_of_ne m ρ c r hr

/-- The aggregated first layer when the second pallas_call is entered. -/
theorem W5_v45 : W5 m ρ c (Proc.devRef .tc main_v45) = val_main_v45 (F := Ideal) (m ((c : Thread nD τ).loc main_arg0)) (m ((c : Thread nD τ).loc main_arg1)) (m ((c : Thread nD τ).loc main_arg2)) :=
  stretch1_v45 (W4 m ρ c) (m ((c : Thread nD τ).loc main_arg0)) (m ((c : Thread nD τ).loc main_arg1)) (m ((c : Thread nD τ).loc main_arg2)) (W4_v32 m ρ c)
    ((W4_keeps m ρ c main_v5 (by decide)).trans (W3_vals m ρ c).1)
    ((W4_keeps m ρ c main_v6 (by decide)).trans (W3_vals m ρ c).2.1)
    ((W4_keeps m ρ c main_v31 (by decide)).trans (W3_vals m ρ c).2.2)

/-- The first bias as a row when the second pallas_call is entered: entry k of the vector at (0, k). -/
theorem W5_v46 (k : Fin 64) : (V5 m ρ c main_v46 : S1x64.Idx → EReal) (ix2 (0 : Fin 1) k) = ((m ((c : Thread nD τ).loc main_arg3)) : S64.Idx → EReal) (ix1 k) :=
  (stretch1_v46 (W4 m ρ c) k).trans
    (congrFun ((W4_keeps m ρ c main_arg3 (by decide)).trans (W3_arg m ρ c main_arg3 (by simp))) (ix1 k))

/-- The second weights when the second pallas_call is entered. -/
theorem W5_arg4 : V5 m ρ c main_arg4 = (m ((c : Thread nD τ).loc main_arg4)) :=
  (stretch1_keeps (W4 m ρ c) main_arg4 (by simp)).trans
    ((W4_keeps m ρ c main_arg4 (by decide)).trans (W3_arg m ρ c main_arg4 (by simp)))

/-- What the first stretch and the first pallas_call leave alone, when the second pallas_call is entered. -/
theorem W5_keeps (r : Ref sig .tc) (hr : r = main_arg5 ∨ r = main_v5 ∨ r = main_v6 ∨ r = main_v31)
    (hne : ∀ w, Pipeline.arrRef spec0 w ≠ r) :
    W5 m ρ c (Proc.devRef .tc r) = W3 m ρ c (Proc.devRef .tc r) :=
  (stretch1_keeps (W4 m ρ c) r (by rcases hr with h | h | h | h <;> simp [h])).trans (W4_keeps m ρ c r hne)

/-! ## The second pallas_call and the stretch after it -/

/-- The second pallas_call leaves relu(agg + b1) @ W2. -/
theorem W6_v47 : W6 m ρ c (Proc.devRef .tc main_v47) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ((final1 (V5 m ρ) pay1_eq c).trans ?_)
  rw [show V5 m ρ c main_v45 = val_main_v45 (F := Ideal) (m ((c : Thread nD τ).loc main_arg0)) (m ((c : Thread nD τ).loc main_arg1)) (m ((c : Thread nD τ).loc main_arg2)) from W5_v45 m ρ c, W5_arg4 m ρ c]
  exact (v50_eq (m ((c : Thread nD τ).loc main_arg0)) (m ((c : Thread nD τ).loc main_arg1)) (m ((c : Thread nD τ).loc main_arg2)) (m ((c : Thread nD τ).loc main_arg3)) (m ((c : Thread nD τ).loc main_arg4)) (V5 m ρ c main_v46) (W5_v46 m ρ c)).symm

/-- A buffer the second pallas_call does not own passes through it. -/
theorem W6_keeps (r : Ref sig .tc) (hr : ∀ w, Pipeline.arrRef spec1 w ≠ r) :
    W6 m ρ c (Proc.devRef .tc r) = W5 m ρ c (Proc.devRef .tc r) := W6_of_ne m ρ c r hr

/-- Sources, targets, edge weights and the last bias when the second stretch starts. -/
theorem W6_vals : W6 m ρ c (Proc.devRef .tc main_v5) = val_main_v6 (F := Ideal) (m ((c : Thread nD τ).loc main_arg1))
    ∧ W6 m ρ c (Proc.devRef .tc main_v6) = val_main_v7 (F := Ideal) (m ((c : Thread nD τ).loc main_arg1))
    ∧ W6 m ρ c (Proc.devRef .tc main_v31) = val_main_v32 (F := Ideal) (m ((c : Thread nD τ).loc main_arg1))
    ∧ W6 m ρ c (Proc.devRef .tc main_arg5) = (m ((c : Thread nD τ).loc main_arg5)) :=
  ⟨((W6_keeps m ρ c main_v5 (by decide)).trans (W5_keeps m ρ c main_v5 (by simp) (by decide))).trans (W3_vals m ρ c).1,
   ((W6_keeps m ρ c main_v6 (by decide)).trans (W5_keeps m ρ c main_v6 (by simp) (by decide))).trans (W3_vals m ρ c).2.1,
   ((W6_keeps m ρ c main_v31 (by decide)).trans (W5_keeps m ρ c main_v31 (by simp) (by decide))).trans (W3_vals m ρ c).2.2,
   ((W6_keeps m ρ c main_arg5 (by decide)).trans (W5_keeps m ρ c main_arg5 (by simp) (by decide))).trans (W3_arg m ρ c main_arg5 (by simp))⟩

/-- The aggregated second layer when the third pallas_call is entered. -/
theorem W7_v60 : W7 m ρ c (Proc.devRef .tc main_v60) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  stretch2_v60 (W6 m ρ c) (m ((c : Thread nD τ).loc main_arg0)) (m ((c : Thread nD τ).loc main_arg1)) (m ((c : Thread nD τ).loc main_arg2)) (m ((c : Thread nD τ).loc main_arg3)) (m ((c : Thread nD τ).loc main_arg4)) (v52_eq (m ((c : Thread nD τ).loc main_arg1))) (v53_eq (m ((c : Thread nD τ).loc main_arg1))) (v78_eq (m ((c : Thread nD τ).loc main_arg1))) (W6_v47 m ρ c)
    (W6_vals m ρ c).1 (W6_vals m ρ c).2.1 (W6_vals m ρ c).2.2.1

/-- The last bias as a row when the third pallas_call is entered: entry j of the vector at (0, j). -/
theorem W7_v61 (j : Fin 16) : (V7 m ρ c main_v61 : S1x16.Idx → EReal) (ix2 (0 : Fin 1) j) = ((m ((c : Thread nD τ).loc main_arg5)) : S16.Idx → EReal) (ix1 j) :=
  (stretch2_v61 (W6 m ρ c) j).trans (congrFun (W6_vals m ρ c).2.2.2 (ix1 j))

/-! ## The third pallas_call: the result -/

/-- THE RESULT ARRAY at the run's last boundary: the reference's last stage of the argument arrays as launched. -/
theorem W8_v62 : W8 m ρ c (Proc.devRef .tc main_v62) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ((final2 (V7 m ρ) pay2_eq c).trans ?_)
  rw [show V7 m ρ c main_v60 = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) from W7_v60 m ρ c]
  exact (v95_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (V7 m ρ c main_v61) (W7_v61 m ρ c)).symm

end Cert.KernelIdeal.Hand

end
-- ==== Proof.LibAfterAppend.lean ====
/-
  Host operations run one stretch after another.

  The contents of a device's buffers after a list of host operations is a fold of the operations over the contents
  before.  A fold over a concatenation is the fold over the second list started from the fold over the first: the
  contents after `l₁ ++ l₂` are the contents after `l₂` from the contents after `l₁`.  This lets a long host
  program be read one stretch at a time, with the contents between two stretches carried as one unknown.
-/
import Idealize.ShloMosaic.Lib.StableHlo.Run

noncomputable section

namespace Cert.Lib.AfterAppend

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Three stretches, as a host program cut twice reads them. -/
theorem after_three (l₁ l₂ l₃ : List (HloOp τ sig Val)) (V : Valuation τ sig Val) :
    after (List.flatten [l₁, l₂, l₃]) V = after l₃ (after l₂ (after l₁ V)) := by
  simp only [List.flatten_cons, List.flatten_nil, List.append_nil, after_append]

end Cert.Lib.AfterAppend

end
-- ==== Proof.RefValue.lean ====
/-
  The reference program's fold of its 140 host operations, read one stretch of operations at a time.

  The program is a straight line of operations, each writing one buffer from buffers written before it or from the
  arguments. What the last buffer holds after all of them is the last stage's value as a function of the arguments.
  The line is cut into 10 stretches; the contents after a concatenation of two lists are the contents after the second
  list from the contents after the first, so the stretches are read one after the other with the contents between two
  stretches carried as one unknown. For each stretch, from any contents W:

  * a buffer the stretch writes holds its stage's value, given that the buffers the stretch reads from before it hold
    their stages' values (each operation's result at its own buffer is its function of its operands' contents, and the
    stage's value is that same function of the operands' stages);
  * a buffer the stretch does not write holds what W held.

  Chaining these from the launch contents, where each argument's buffer holds the argument, gives the result.
-/
import proofs.«117805_j21320217657891_1_alg».proof.Proof.RefRun
import proofs.«117805_j21320217657891_1_alg».proof.Proof.RefRead
import proofs.«117805_j21320217657891_1_alg».proof.Proof.LibAfterAppend
import Idealize.ShloMosaic.Lib.StableHlo.Run

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The stretches -/

/-- Operations 1 to 25 of the program, in order. -/
def seg1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)),
    nullary main_v5 (iotaInDim S50000 32 0),
    binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x2B8CBCCC#32),
    unary main_cst_2 main_v14 (broadcastInDim S50000 ![] bcast_S_S50000 : (⟨S_, .f32⟩ : BufTy).Contents (Elt F) → (⟨S50000, .f32⟩ : BufTy).Contents (Elt F)),
    binary main_v11 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v16) (TRef.of (T := ⟨S50000, .f32⟩) main_call0_v1) (TRef.of (T := ⟨S50000, .f32⟩) main_v17) select ]

/-- Operations 26 to 44 of the program, in order. -/
def seg2 : List (HloOp τ sig (Elt F)) :=
  [ nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v6 main_v18 main_v19 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v20 (broadcastInDim S850000 ![] bcast_S_S850000 : (⟨S_, .i32⟩ : BufTy).Contents (Elt F) → (⟨S850000, .i32⟩ : BufTy).Contents (Elt F)),
    binary main_v6 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v6 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v27 (broadcastInDim S850000 ![] bcast_S_S850000 : (⟨S_, .i32⟩ : BufTy).Contents (Elt F) → (⟨S850000, .i32⟩ : BufTy).Contents (Elt F)),
    binary main_v7 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v7 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v17 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v31 main_v32 (mulf : (⟨S850000, .f32⟩ : BufTy).Contents (Elt F) → (⟨S850000, .f32⟩ : BufTy).Contents (Elt F) → (⟨S850000, .f32⟩ : BufTy).Contents (Elt F)) ]

/-- Operations 45 to 67 of the program, in order. -/
def seg3 : List (HloOp τ sig (Elt F)) :=
  [ nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v6 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v6 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v4 main_v38 main_v39 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v32 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x64 ![0, 1] bcast_S850000x1_S850000x64_0_1 : (⟨S850000x1, .f32⟩ : BufTy).Contents (Elt F) → (⟨S850000x64, .f32⟩ : BufTy).Contents (Elt F)),
    binary main_v39 main_v41 main_v42 (mulf : (⟨S850000x64, .f32⟩ : BufTy).Contents (Elt F) → (⟨S850000x64, .f32⟩ : BufTy).Contents (Elt F) → (⟨S850000x64, .f32⟩ : BufTy).Contents (Elt F)),
    nullary main_cst_9 (constant S_ .f32 0x00000000#32),
    unary main_cst_9 main_v43 (broadcastInDim S50000x64 ![] bcast_S_S50000x64 : (⟨S_, .f32⟩ : BufTy).Contents (Elt F) → (⟨S50000x64, .f32⟩ : BufTy).Contents (Elt F)),
    unary main_v7 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S50000x64 ![0, 1] bcast_S1x64_S50000x64_0_1 : (⟨S1x64, .f32⟩ : BufTy).Contents (Elt F) → (⟨S50000x64, .f32⟩ : BufTy).Contents (Elt F)),
    binary main_v45 main_v47 main_v48 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v48) (TRef.of (T := ⟨S50000x64, .f32⟩) main_call1_v0) (TRef.of (T := ⟨S50000x64, .f32⟩) main_v49) maximumf,
    binary main_v49 main_arg4 main_v50 ((fun l r => Host.dotGeneral dot_S50000x64_S64x16_S50000x16_1_0_0_1_n_n none l r) : (⟨S50000x64, .f32⟩ : BufTy).Contents (Elt F) → (⟨S64x16, .f32⟩ : BufTy).Contents (Elt F) → (⟨S50000x16, .f32⟩ : BufTy).Contents (Elt F)) ]

/-- Operations 68 to 70 of the program, in order. -/
def seg4 : List (HloOp τ sig (Elt F)) :=
  [ nullary main_v51 (iotaInDim S50000 32 0),
    binary main_v1 main_v51 main_v52 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v51 main_v53 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Operations 71 to 87 of the program, in order. -/
def seg5 : List (HloOp τ sig (Elt F)) :=
  [ nullary main_cst_10 (constant S_ .f32 0x3F800000#32),
    unary main_cst_10 main_v54 (broadcastInDim S850000 ![] bcast_S_S850000 : (⟨S_, .f32⟩ : BufTy).Contents (Elt F) → (⟨S850000, .f32⟩ : BufTy).Contents (Elt F)),
    nullary main_cst_11 (constant S_ .f32 0x00000000#32),
    unary main_cst_11 main_v55 (broadcastInDim S50000 ![] bcast_S_S50000 : (⟨S_, .f32⟩ : BufTy).Contents (Elt F) → (⟨S50000, .f32⟩ : BufTy).Contents (Elt F)),
    unary main_v53 main_v56 (broadcastInDim S850000x1 ![0] bcast_S850000_S850000x1_0 : (⟨S850000, .i32⟩ : BufTy).Contents (Elt F) → (⟨S850000x1, .i32⟩ : BufTy).Contents (Elt F)),
    ternary main_v55 main_v56 main_v54 main_v57 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_12 (constant S_ .f32 0x00000000#32),
    unary main_cst_12 main_v58 (broadcastInDim S50000 ![] bcast_S_S50000 : (⟨S_, .f32⟩ : BufTy).Contents (Elt F) → (⟨S50000, .f32⟩ : BufTy).Contents (Elt F)),
    binary main_v57 main_v58 main_v59 (cmpf .ogt : (⟨S50000, .f32⟩ : BufTy).Contents (Elt F) → (⟨S50000, .f32⟩ : BufTy).Contents (Elt F) → (⟨S50000, .i1⟩ : BufTy).Contents (Elt F)),
    nullary main_cst_13 (constant S_ .f32 0x2B8CBCCC#32),
    unary main_cst_13 main_v60 (broadcastInDim S50000 ![] bcast_S_S50000 : (⟨S_, .f32⟩ : BufTy).Contents (Elt F) → (⟨S50000, .f32⟩ : BufTy).Contents (Elt F)),
    binary main_v57 main_v60 main_v61 (maximumf : (⟨S50000, .f32⟩ : BufTy).Contents (Elt F) → (⟨S50000, .f32⟩ : BufTy).Contents (Elt F) → (⟨S50000, .f32⟩ : BufTy).Contents (Elt F)),
    unary main_v61 main_v62 (Host.rsqrt : (⟨S50000, .f32⟩ : BufTy).Contents (Elt F) → (⟨S50000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v59) (TRef.of (T := ⟨S50000, .f32⟩) main_v62) (TRef.of (T := ⟨S50000, .f32⟩) main_call2_v1) (TRef.of (T := ⟨S50000, .f32⟩) main_v63) select ]

/-- Operations 88 to 106 of the program, in order. -/
def seg6 : List (HloOp τ sig (Elt F)) :=
  [ nullary main_c_15 (constantI S_ 32 0#32),
    unary main_c_15 main_v64 (broadcastInDim S850000 ![] bcast_S_S850000 : (⟨S_, .i32⟩ : BufTy).Contents (Elt F) → (⟨S850000, .i32⟩ : BufTy).Contents (Elt F)),
    binary main_v52 main_v64 main_v65 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v66 (broadcastInDim S850000 ![] bcast_S_S850000 : (⟨S_, .i32⟩ : BufTy).Contents (Elt F) → (⟨S850000, .i32⟩ : BufTy).Contents (Elt F)),
    binary main_v52 main_v66 main_v67 (addi : (⟨S850000, .i32⟩ : BufTy).Contents (Elt F) → (⟨S850000, .i32⟩ : BufTy).Contents (Elt F) → (⟨S850000, .i32⟩ : BufTy).Contents (Elt F)),
    ternary main_v65 main_v67 main_v52 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v68 main_v69 (broadcastInDim S850000x1 ![0] bcast_S850000_S850000x1_0 : (⟨S850000, .i32⟩ : BufTy).Contents (Elt F) → (⟨S850000x1, .i32⟩ : BufTy).Contents (Elt F)),
    binary main_v63 main_v69 main_v70 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_17 (constantI S_ 32 0#32),
    unary main_c_17 main_v71 (broadcastInDim S850000 ![] bcast_S_S850000 : (⟨S_, .i32⟩ : BufTy).Contents (Elt F) → (⟨S850000, .i32⟩ : BufTy).Contents (Elt F)),
    binary main_v53 main_v71 main_v72 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v73 (broadcastInDim S850000 ![] bcast_S_S850000 : (⟨S_, .i32⟩ : BufTy).Contents (Elt F) → (⟨S850000, .i32⟩ : BufTy).Contents (Elt F)),
    binary main_v53 main_v73 main_v74 (addi : (⟨S850000, .i32⟩ : BufTy).Contents (Elt F) → (⟨S850000, .i32⟩ : BufTy).Contents (Elt F) → (⟨S850000, .i32⟩ : BufTy).Contents (Elt F)),
    ternary main_v72 main_v74 main_v53 main_v75 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v75 main_v76 (broadcastInDim S850000x1 ![0] bcast_S850000_S850000x1_0 : (⟨S850000, .i32⟩ : BufTy).Contents (Elt F) → (⟨S850000x1, .i32⟩ : BufTy).Contents (Elt F)),
    binary main_v63 main_v76 main_v77 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v70 main_v77 main_v78 (mulf : (⟨S850000, .f32⟩ : BufTy).Contents (Elt F) → (⟨S850000, .f32⟩ : BufTy).Contents (Elt F) → (⟨S850000, .f32⟩ : BufTy).Contents (Elt F)) ]

/-- Operations 107 to 125 of the program, in order. -/
def seg7 : List (HloOp τ sig (Elt F)) :=
  [ nullary main_c_19 (constantI S_ 32 0#32),
    unary main_c_19 main_v79 (broadcastInDim S850000 ![] bcast_S_S850000 : (⟨S_, .i32⟩ : BufTy).Contents (Elt F) → (⟨S850000, .i32⟩ : BufTy).Contents (Elt F)),
    binary main_v52 main_v79 main_v80 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v81 (broadcastInDim S850000 ![] bcast_S_S850000 : (⟨S_, .i32⟩ : BufTy).Contents (Elt F) → (⟨S850000, .i32⟩ : BufTy).Contents (Elt F)),
    binary main_v52 main_v81 main_v82 (addi : (⟨S850000, .i32⟩ : BufTy).Contents (Elt F) → (⟨S850000, .i32⟩ : BufTy).Contents (Elt F) → (⟨S850000, .i32⟩ : BufTy).Contents (Elt F)),
    ternary main_v80 main_v82 main_v52 main_v83 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v83 main_v84 (broadcastInDim S850000x1 ![0] bcast_S850000_S850000x1_0 : (⟨S850000, .i32⟩ : BufTy).Contents (Elt F) → (⟨S850000x1, .i32⟩ : BufTy).Contents (Elt F)),
    binary main_v50 main_v84 main_v85 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v78 main_v86 (broadcastInDim S850000x1 ![0] bcast_S850000_S850000x1_0 : (⟨S850000, .f32⟩ : BufTy).Contents (Elt F) → (⟨S850000x1, .f32⟩ : BufTy).Contents (Elt F)),
    unary main_v86 main_v87 (broadcastInDim S850000x16 ![0, 1] bcast_S850000x1_S850000x16_0_1 : (⟨S850000x1, .f32⟩ : BufTy).Contents (Elt F) → (⟨S850000x16, .f32⟩ : BufTy).Contents (Elt F)),
    binary main_v85 main_v87 main_v88 (mulf : (⟨S850000x16, .f32⟩ : BufTy).Contents (Elt F) → (⟨S850000x16, .f32⟩ : BufTy).Contents (Elt F) → (⟨S850000x16, .f32⟩ : BufTy).Contents (Elt F)),
    nullary main_cst_21 (constant S_ .f32 0x00000000#32),
    unary main_cst_21 main_v89 (broadcastInDim S50000x16 ![] bcast_S_S50000x16 : (⟨S_, .f32⟩ : BufTy).Contents (Elt F) → (⟨S50000x16, .f32⟩ : BufTy).Contents (Elt F)),
    unary main_v53 main_v90 (broadcastInDim S850000x1 ![0] bcast_S850000_S850000x1_0 : (⟨S850000, .i32⟩ : BufTy).Contents (Elt F) → (⟨S850000x1, .i32⟩ : BufTy).Contents (Elt F)),
    ternary main_v89 main_v90 main_v88 main_v91 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_arg5 main_v92 (broadcastInDim S1x16 ![1] bcast_S16_S1x16_1 : (⟨S16, .f32⟩ : BufTy).Contents (Elt F) → (⟨S1x16, .f32⟩ : BufTy).Contents (Elt F)),
    unary main_v92 main_v93 (broadcastInDim S50000x16 ![0, 1] bcast_S1x16_S50000x16_0_1 : (⟨S1x16, .f32⟩ : BufTy).Contents (Elt F) → (⟨S50000x16, .f32⟩ : BufTy).Contents (Elt F)),
    binary main_v91 main_v93 main_v94 (addf : (⟨S50000x16, .f32⟩ : BufTy).Contents (Elt F) → (⟨S50000x16, .f32⟩ : BufTy).Contents (Elt F) → (⟨S50000x16, .f32⟩ : BufTy).Contents (Elt F)) ]

/-- Operations 126 to 127 of the program, in order. -/
def seg8 : List (HloOp τ sig (Elt F)) :=
  [ TRef.nullary (TRef.of (T := ⟨S_, .f32⟩) main_call3_cst) (constant S_ .f32 0xFF800000#32),
    TRef.binary (TRef.of (T := ⟨S50000x16, .f32⟩) main_v94) (TRef.of (T := ⟨S_, .f32⟩) main_call3_cst) (TRef.of (T := ⟨S50000, .f32⟩) main_call3_v0) (fun x v => Host.reduce FloatOps.maximumf x v reducesTo_S50000x16_S50000_d1 h_S_) ]

/-- Operations 128 to 133 of the program, in order. -/
def seg9 : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x16, .f32⟩) main_call3_v4) (broadcastInDim S50000x16 ![0, 1] bcast_S50000x1_S50000x16_0_1),
    TRef.binary (TRef.of (T := ⟨S50000x16, .f32⟩) main_v94) (TRef.of (T := ⟨S50000x16, .f32⟩) main_call3_v4) (TRef.of (T := ⟨S50000x16, .f32⟩) main_call3_v5) subf ]

/-- Operations 134 to 140 of the program, in order. -/
def seg10 : List (HloOp τ sig (Elt F)) :=
  [ TRef.unary (TRef.of (T := ⟨S50000x16, .f32⟩) main_call3_v5) (TRef.of (T := ⟨S50000x16, .f32⟩) main_call3_v6) Host.exp,
    TRef.nullary (TRef.of (T := ⟨S_, .f32⟩) main_call3_cst_1) (constant S_ .f32 0x00000000#32),
    TRef.binary (TRef.of (T := ⟨S50000x16, .f32⟩) main_call3_v6) (TRef.of (T := ⟨S_, .f32⟩) main_call3_cst_1) (TRef.of (T := ⟨S50000, .f32⟩) main_call3_v7) (fun x v => Host.reduceAdd x v reducesTo_S50000x16_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x16, .f32⟩) main_call3_v10) (broadcastInDim S50000x16 ![0, 1] bcast_S50000x1_S50000x16_0_1),
    TRef.binary (TRef.of (T := ⟨S50000x16, .f32⟩) main_call3_v5) (TRef.of (T := ⟨S50000x16, .f32⟩) main_call3_v10) (TRef.of (T := ⟨S50000x16, .f32⟩) main_v95) subf ]

/-! ### Stretch 1 -/

theorem seg1_v6 (W : Valuation τ sig (Elt F)) (x1 : (⟨S2x800000, .i32⟩ : BufTy).Contents (Elt F))
    (h_arg1 : W (Proc.devRef .tc main_arg1) = x1) :
    after (seg1 (F := F)) W (Proc.devRef .tc main_v6) = val_main_v6 (F := F) x1 := by
  dsimp only [seg1]
  after_results
  rw [h_arg1]
  rfl

theorem seg1_v17 (W : Valuation τ sig (Elt F)) (x1 : (⟨S2x800000, .i32⟩ : BufTy).Contents (Elt F))
    (h_arg1 : W (Proc.devRef .tc main_arg1) = x1) :
    after (seg1 (F := F)) W (Proc.devRef .tc main_v17) = val_main_v17 (F := F) x1 := by
  dsimp only [seg1]
  after_results
  simp only [TRef.toBuf, TRef.ofBuf, cast_eq]
  rw [h_arg1]
  rfl

theorem seg1_v7 (W : Valuation τ sig (Elt F)) (x1 : (⟨S2x800000, .i32⟩ : BufTy).Contents (Elt F))
    (h_arg1 : W (Proc.devRef .tc main_arg1) = x1) :
    after (seg1 (F := F)) W (Proc.devRef .tc main_v7) = val_main_v7 (F := F) x1 := by
  dsimp only [seg1]
  after_results
  rw [h_arg1]
  rfl

theorem seg1_v4 (W : Valuation τ sig (Elt F)) (x0 : (⟨S50000x96, .f32⟩ : BufTy).Contents (Elt F)) (x2 : (⟨S96x64, .f32⟩ : BufTy).Contents (Elt F))
    (h_arg0 : W (Proc.devRef .tc main_arg0) = x0)
    (h_arg2 : W (Proc.devRef .tc main_arg2) = x2) :
    after (seg1 (F := F)) W (Proc.devRef .tc main_v4) = val_main_v4 (F := F) x0 x2 := by
  dsimp only [seg1]
  after_results
  rw [h_arg0, h_arg2]
  rfl

theorem seg1_v1 (W : Valuation τ sig (Elt F)) (x1 : (⟨S2x800000, .i32⟩ : BufTy).Contents (Elt F))
    (h_arg1 : W (Proc.devRef .tc main_arg1) = x1) :
    after (seg1 (F := F)) W (Proc.devRef .tc main_v1) = val_main_v1 (F := F) x1 := by
  dsimp only [seg1]
  after_results
  rw [h_arg1]
  rfl

theorem seg1_v3 (W : Valuation τ sig (Elt F)) (x1 : (⟨S2x800000, .i32⟩ : BufTy).Contents (Elt F))
    (h_arg1 : W (Proc.devRef .tc main_arg1) = x1) :
    after (seg1 (F := F)) W (Proc.devRef .tc main_v3) = val_main_v3 (F := F) x1 := by
  dsimp only [seg1]
  after_results
  rw [h_arg1]
  rfl

theorem seg1_keep_arg3 (W : Valuation τ sig (Elt F)) :
    after (seg1 (F := F)) W (Proc.devRef .tc main_arg3) = W (Proc.devRef .tc main_arg3) := by
  dsimp only [seg1]
  after_results

theorem seg1_keep_arg4 (W : Valuation τ sig (Elt F)) :
    after (seg1 (F := F)) W (Proc.devRef .tc main_arg4) = W (Proc.devRef .tc main_arg4) := by
  dsimp only [seg1]
  after_results

theorem seg1_keep_arg5 (W : Valuation τ sig (Elt F)) :
    after (seg1 (F := F)) W (Proc.devRef .tc main_arg5) = W (Proc.devRef .tc main_arg5) := by
  dsimp only [seg1]
  after_results

/-! ### Stretch 2 -/

theorem seg2_v32 (W : Valuation τ sig (Elt F)) (x1 : (⟨S2x800000, .i32⟩ : BufTy).Contents (Elt F))
    (h_v17 : W (Proc.devRef .tc main_v17) = val_main_v17 (F := F) x1)
    (h_v6 : W (Proc.devRef .tc main_v6) = val_main_v6 (F := F) x1)
    (h_v7 : W (Proc.devRef .tc main_v7) = val_main_v7 (F := F) x1) :
    after (seg2 (F := F)) W (Proc.devRef .tc main_v32) = val_main_v32 (F := F) x1 := by
  dsimp only [seg2]
  after_results_simp
  rw [h_v17, h_v6, h_v7]
  rfl

theorem seg2_keep_v6 (W : Valuation τ sig (Elt F)) :
    after (seg2 (F := F)) W (Proc.devRef .tc main_v6) = W (Proc.devRef .tc main_v6) := by
  dsimp only [seg2]
  after_results_simp

theorem seg2_keep_v4 (W : Valuation τ sig (Elt F)) :
    after (seg2 (F := F)) W (Proc.devRef .tc main_v4) = W (Proc.devRef .tc main_v4) := by
  dsimp only [seg2]
  after_results_simp

theorem seg2_keep_v7 (W : Valuation τ sig (Elt F)) :
    after (seg2 (F := F)) W (Proc.devRef .tc main_v7) = W (Proc.devRef .tc main_v7) := by
  dsimp only [seg2]
  after_results_simp

theorem seg2_keep_arg3 (W : Valuation τ sig (Elt F)) :
    after (seg2 (F := F)) W (Proc.devRef .tc main_arg3) = W (Proc.devRef .tc main_arg3) := by
  dsimp only [seg2]
  after_results_simp

theorem seg2_keep_arg4 (W : Valuation τ sig (Elt F)) :
    after (seg2 (F := F)) W (Proc.devRef .tc main_arg4) = W (Proc.devRef .tc main_arg4) := by
  dsimp only [seg2]
  after_results_simp

theorem seg2_keep_v1 (W : Valuation τ sig (Elt F)) :
    after (seg2 (F := F)) W (Proc.devRef .tc main_v1) = W (Proc.devRef .tc main_v1) := by
  dsimp only [seg2]
  after_results_simp

theorem seg2_keep_v3 (W : Valuation τ sig (Elt F)) :
    after (seg2 (F := F)) W (Proc.devRef .tc main_v3) = W (Proc.devRef .tc main_v3) := by
  dsimp only [seg2]
  after_results_simp

theorem seg2_keep_arg5 (W : Valuation τ sig (Elt F)) :
    after (seg2 (F := F)) W (Proc.devRef .tc main_arg5) = W (Proc.devRef .tc main_arg5) := by
  dsimp only [seg2]
  after_results_simp

/-! ### Stretch 3 -/

theorem seg3_v50 (W : Valuation τ sig (Elt F)) (x0 : (⟨S50000x96, .f32⟩ : BufTy).Contents (Elt F)) (x1 : (⟨S2x800000, .i32⟩ : BufTy).Contents (Elt F)) (x2 : (⟨S96x64, .f32⟩ : BufTy).Contents (Elt F)) (x3 : (⟨S64, .f32⟩ : BufTy).Contents (Elt F)) (x4 : (⟨S64x16, .f32⟩ : BufTy).Contents (Elt F))
    (h_v7 : W (Proc.devRef .tc main_v7) = val_main_v7 (F := F) x1)
    (h_v4 : W (Proc.devRef .tc main_v4) = val_main_v4 (F := F) x0 x2)
    (h_v6 : W (Proc.devRef .tc main_v6) = val_main_v6 (F := F) x1)
    (h_v32 : W (Proc.devRef .tc main_v32) = val_main_v32 (F := F) x1)
    (h_arg3 : W (Proc.devRef .tc main_arg3) = x3)
    (h_arg4 : W (Proc.devRef .tc main_arg4) = x4) :
    after (seg3 (F := F)) W (Proc.devRef .tc main_v50) = val_main_v50 (F := F) x0 x1 x2 x3 x4 := by
  dsimp only [seg3]
  after_results_simp
  simp only [TRef.toBuf, TRef.ofBuf, cast_eq]
  rw [h_v7, h_v4, h_v6, h_v32, h_arg3, h_arg4]
  rfl

theorem seg3_keep_v1 (W : Valuation τ sig (Elt F)) :
    after (seg3 (F := F)) W (Proc.devRef .tc main_v1) = W (Proc.devRef .tc main_v1) := by
  dsimp only [seg3]
  after_results_simp

theorem seg3_keep_v3 (W : Valuation τ sig (Elt F)) :
    after (seg3 (F := F)) W (Proc.devRef .tc main_v3) = W (Proc.devRef .tc main_v3) := by
  dsimp only [seg3]
  after_results_simp

theorem seg3_keep_arg5 (W : Valuation τ sig (Elt F)) :
    after (seg3 (F := F)) W (Proc.devRef .tc main_arg5) = W (Proc.devRef .tc main_arg5) := by
  dsimp only [seg3]
  after_results_simp

/-! ### Stretch 4 -/

theorem seg4_v53 (W : Valuation τ sig (Elt F)) (x1 : (⟨S2x800000, .i32⟩ : BufTy).Contents (Elt F))
    (h_v3 : W (Proc.devRef .tc main_v3) = val_main_v3 (F := F) x1) :
    after (seg4 (F := F)) W (Proc.devRef .tc main_v53) = val_main_v53 (F := F) x1 := by
  dsimp only [seg4]
  after_results
  rw [h_v3]
  rfl

theorem seg4_v52 (W : Valuation τ sig (Elt F)) (x1 : (⟨S2x800000, .i32⟩ : BufTy).Contents (Elt F))
    (h_v1 : W (Proc.devRef .tc main_v1) = val_main_v1 (F := F) x1) :
    after (seg4 (F := F)) W (Proc.devRef .tc main_v52) = val_main_v52 (F := F) x1 := by
  dsimp only [seg4]
  after_results
  rw [h_v1]
  rfl

theorem seg4_keep_v50 (W : Valuation τ sig (Elt F)) :
    after (seg4 (F := F)) W (Proc.devRef .tc main_v50) = W (Proc.devRef .tc main_v50) := by
  dsimp only [seg4]
  after_results

theorem seg4_keep_arg5 (W : Valuation τ sig (Elt F)) :
    after (seg4 (F := F)) W (Proc.devRef .tc main_arg5) = W (Proc.devRef .tc main_arg5) := by
  dsimp only [seg4]
  after_results

/-! ### Stretch 5 -/

theorem seg5_v63 (W : Valuation τ sig (Elt F)) (x1 : (⟨S2x800000, .i32⟩ : BufTy).Contents (Elt F))
    (h_v53 : W (Proc.devRef .tc main_v53) = val_main_v53 (F := F) x1) :
    after (seg5 (F := F)) W (Proc.devRef .tc main_v63) = val_main_v63 (F := F) x1 := by
  dsimp only [seg5]
  after_results_simp
  simp only [TRef.toBuf, TRef.ofBuf, cast_eq]
  rw [h_v53]
  rfl

theorem seg5_keep_v52 (W : Valuation τ sig (Elt F)) :
    after (seg5 (F := F)) W (Proc.devRef .tc main_v52) = W (Proc.devRef .tc main_v52) := by
  dsimp only [seg5]
  after_results_simp

theorem seg5_keep_v53 (W : Valuation τ sig (Elt F)) :
    after (seg5 (F := F)) W (Proc.devRef .tc main_v53) = W (Proc.devRef .tc main_v53) := by
  dsimp only [seg5]
  after_results_simp

theorem seg5_keep_v50 (W : Valuation τ sig (Elt F)) :
    after (seg5 (F := F)) W (Proc.devRef .tc main_v50) = W (Proc.devRef .tc main_v50) := by
  dsimp only [seg5]
  after_results_simp

theorem seg5_keep_arg5 (W : Valuation τ sig (Elt F)) :
    after (seg5 (F := F)) W (Proc.devRef .tc main_arg5) = W (Proc.devRef .tc main_arg5) := by
  dsimp only [seg5]
  after_results_simp

/-! ### Stretch 6 -/

theorem seg6_v78 (W : Valuation τ sig (Elt F)) (x1 : (⟨S2x800000, .i32⟩ : BufTy).Contents (Elt F))
    (h_v63 : W (Proc.devRef .tc main_v63) = val_main_v63 (F := F) x1)
    (h_v52 : W (Proc.devRef .tc main_v52) = val_main_v52 (F := F) x1)
    (h_v53 : W (Proc.devRef .tc main_v53) = val_main_v53 (F := F) x1) :
    after (seg6 (F := F)) W (Proc.devRef .tc main_v78) = val_main_v78 (F := F) x1 := by
  dsimp only [seg6]
  after_results_simp
  rw [h_v63, h_v52, h_v53]
  rfl

theorem seg6_keep_v52 (W : Valuation τ sig (Elt F)) :
    after (seg6 (F := F)) W (Proc.devRef .tc main_v52) = W (Proc.devRef .tc main_v52) := by
  dsimp only [seg6]
  after_results_simp

theorem seg6_keep_v50 (W : Valuation τ sig (Elt F)) :
    after (seg6 (F := F)) W (Proc.devRef .tc main_v50) = W (Proc.devRef .tc main_v50) := by
  dsimp only [seg6]
  after_results_simp

theorem seg6_keep_v53 (W : Valuation τ sig (Elt F)) :
    after (seg6 (F := F)) W (Proc.devRef .tc main_v53) = W (Proc.devRef .tc main_v53) := by
  dsimp only [seg6]
  after_results_simp

theorem seg6_keep_arg5 (W : Valuation τ sig (Elt F)) :
    after (seg6 (F := F)) W (Proc.devRef .tc main_arg5) = W (Proc.devRef .tc main_arg5) := by
  dsimp only [seg6]
  after_results_simp

/-! ### Stretch 7 -/

theorem seg7_v94 (W : Valuation τ sig (Elt F)) (x0 : (⟨S50000x96, .f32⟩ : BufTy).Contents (Elt F)) (x1 : (⟨S2x800000, .i32⟩ : BufTy).Contents (Elt F)) (x2 : (⟨S96x64, .f32⟩ : BufTy).Contents (Elt F)) (x3 : (⟨S64, .f32⟩ : BufTy).Contents (Elt F)) (x4 : (⟨S64x16, .f32⟩ : BufTy).Contents (Elt F)) (x5 : (⟨S16, .f32⟩ : BufTy).Contents (Elt F))
    (h_v53 : W (Proc.devRef .tc main_v53) = val_main_v53 (F := F) x1)
    (h_v50 : W (Proc.devRef .tc main_v50) = val_main_v50 (F := F) x0 x1 x2 x3 x4)
    (h_v52 : W (Proc.devRef .tc main_v52) = val_main_v52 (F := F) x1)
    (h_v78 : W (Proc.devRef .tc main_v78) = val_main_v78 (F := F) x1)
    (h_arg5 : W (Proc.devRef .tc main_arg5) = x5) :
    after (seg7 (F := F)) W (Proc.devRef .tc main_v94) = val_main_v94 (F := F) x0 x1 x2 x3 x4 x5 := by
  dsimp only [seg7]
  after_results_simp
  rw [h_v53, h_v50, h_v52, h_v78, h_arg5]
  rfl

/-! ### Stretch 8 -/

theorem seg8_call3_v0 (W : Valuation τ sig (Elt F)) (x0 : (⟨S50000x96, .f32⟩ : BufTy).Contents (Elt F)) (x1 : (⟨S2x800000, .i32⟩ : BufTy).Contents (Elt F)) (x2 : (⟨S96x64, .f32⟩ : BufTy).Contents (Elt F)) (x3 : (⟨S64, .f32⟩ : BufTy).Contents (Elt F)) (x4 : (⟨S64x16, .f32⟩ : BufTy).Contents (Elt F)) (x5 : (⟨S16, .f32⟩ : BufTy).Contents (Elt F))
    (h_v94 : W (Proc.devRef .tc main_v94) = val_main_v94 (F := F) x0 x1 x2 x3 x4 x5) :
    after (seg8 (F := F)) W (Proc.devRef .tc main_call3_v0) = val_main_call3_v0 (F := F) x0 x1 x2 x3 x4 x5 := by
  dsimp only [seg8]
  after_results
  rw [h_v94]
  simp only [TRef.toBuf, TRef.ofBuf, cast_eq]
  rfl

theorem seg8_keep_v94 (W : Valuation τ sig (Elt F)) :
    after (seg8 (F := F)) W (Proc.devRef .tc main_v94) = W (Proc.devRef .tc main_v94) := by
  dsimp only [seg8]
  after_results

/-! ### Stretch 9 -/

theorem seg9_call3_v5 (W : Valuation τ sig (Elt F)) (x0 : (⟨S50000x96, .f32⟩ : BufTy).Contents (Elt F)) (x1 : (⟨S2x800000, .i32⟩ : BufTy).Contents (Elt F)) (x2 : (⟨S96x64, .f32⟩ : BufTy).Contents (Elt F)) (x3 : (⟨S64, .f32⟩ : BufTy).Contents (Elt F)) (x4 : (⟨S64x16, .f32⟩ : BufTy).Contents (Elt F)) (x5 : (⟨S16, .f32⟩ : BufTy).Contents (Elt F))
    (h_v94 : W (Proc.devRef .tc main_v94) = val_main_v94 (F := F) x0 x1 x2 x3 x4 x5)
    (h_call3_v0 : W (Proc.devRef .tc main_call3_v0) = val_main_call3_v0 (F := F) x0 x1 x2 x3 x4 x5) :
    after (seg9 (F := F)) W (Proc.devRef .tc main_call3_v5) = val_main_call3_v5 (F := F) x0 x1 x2 x3 x4 x5 := by
  dsimp only [seg9]
  after_results_simp
  simp only [TRef.toBuf, TRef.ofBuf, cast_eq]
  rw [h_v94, h_call3_v0]
  rfl

/-! ### Stretch 10 -/

theorem seg10_v95 (W : Valuation τ sig (Elt F)) (x0 : (⟨S50000x96, .f32⟩ : BufTy).Contents (Elt F)) (x1 : (⟨S2x800000, .i32⟩ : BufTy).Contents (Elt F)) (x2 : (⟨S96x64, .f32⟩ : BufTy).Contents (Elt F)) (x3 : (⟨S64, .f32⟩ : BufTy).Contents (Elt F)) (x4 : (⟨S64x16, .f32⟩ : BufTy).Contents (Elt F)) (x5 : (⟨S16, .f32⟩ : BufTy).Contents (Elt F))
    (h_call3_v5 : W (Proc.devRef .tc main_call3_v5) = val_main_call3_v5 (F := F) x0 x1 x2 x3 x4 x5) :
    after (seg10 (F := F)) W (Proc.devRef .tc main_v95) = val_main_v95 (F := F) x0 x1 x2 x3 x4 x5 := by
  dsimp only [seg10]
  after_results_simp
  simp only [TRef.toBuf, TRef.ofBuf, cast_eq]
  rw [h_call3_v5]
  rfl

/-! ## The chain -/

/-- From any contents whose argument buffers hold x0 … x5, the stretches run in order leave the last stage's value in the
    result's buffer. -/
theorem chain (W : Valuation τ sig (Elt F)) (x0 : (⟨S50000x96, .f32⟩ : BufTy).Contents (Elt F))
    (x1 : (⟨S2x800000, .i32⟩ : BufTy).Contents (Elt F))
    (x2 : (⟨S96x64, .f32⟩ : BufTy).Contents (Elt F))
    (x3 : (⟨S64, .f32⟩ : BufTy).Contents (Elt F))
    (x4 : (⟨S64x16, .f32⟩ : BufTy).Contents (Elt F))
    (x5 : (⟨S16, .f32⟩ : BufTy).Contents (Elt F))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) :
    after (seg10 (F := F)) (after (seg9 (F := F)) (after (seg8 (F := F)) (after (seg7 (F := F)) (after (seg6 (F := F)) (after (seg5 (F := F)) (after (seg4 (F := F)) (after (seg3 (F := F)) (after (seg2 (F := F)) (after (seg1 (F := F)) W))))))))) (Proc.devRef .tc main_v95)
      = val_main_v95 (F := F) x0 x1 x2 x3 x4 x5 := by
  have f1_v6 := seg1_v6 W x1 a1
  have f1_v17 := seg1_v17 W x1 a1
  have f1_v7 := seg1_v7 W x1 a1
  have f1_v4 := seg1_v4 W x0 x2 a0 a2
  have f1_v1 := seg1_v1 W x1 a1
  have f1_v3 := seg1_v3 W x1 a1
  have k1_arg3 := (seg1_keep_arg3 W).trans a3
  have k1_arg4 := (seg1_keep_arg4 W).trans a4
  have k1_arg5 := (seg1_keep_arg5 W).trans a5
  have f2_v32 := seg2_v32 (after (seg1 (F := F)) W) x1 f1_v17 f1_v6 f1_v7
  have k2_v6 := (seg2_keep_v6 (after (seg1 (F := F)) W)).trans f1_v6
  have k2_v4 := (seg2_keep_v4 (after (seg1 (F := F)) W)).trans f1_v4
  have k2_v7 := (seg2_keep_v7 (after (seg1 (F := F)) W)).trans f1_v7
  have k2_arg3 := (seg2_keep_arg3 (after (seg1 (F := F)) W)).trans k1_arg3
  have k2_arg4 := (seg2_keep_arg4 (after (seg1 (F := F)) W)).trans k1_arg4
  have k2_v1 := (seg2_keep_v1 (after (seg1 (F := F)) W)).trans f1_v1
  have k2_v3 := (seg2_keep_v3 (after (seg1 (F := F)) W)).trans f1_v3
  have k2_arg5 := (seg2_keep_arg5 (after (seg1 (F := F)) W)).trans k1_arg5
  have f3_v50 := seg3_v50 (after (seg2 (F := F)) (after (seg1 (F := F)) W)) x0 x1 x2 x3 x4 k2_v7 k2_v4 k2_v6 f2_v32 k2_arg3 k2_arg4
  have k3_v1 := (seg3_keep_v1 (after (seg2 (F := F)) (after (seg1 (F := F)) W))).trans k2_v1
  have k3_v3 := (seg3_keep_v3 (after (seg2 (F := F)) (after (seg1 (F := F)) W))).trans k2_v3
  have k3_arg5 := (seg3_keep_arg5 (after (seg2 (F := F)) (after (seg1 (F := F)) W))).trans k2_arg5
  have f4_v53 := seg4_v53 (after (seg3 (F := F)) (after (seg2 (F := F)) (after (seg1 (F := F)) W))) x1 k3_v3
  have f4_v52 := seg4_v52 (after (seg3 (F := F)) (after (seg2 (F := F)) (after (seg1 (F := F)) W))) x1 k3_v1
  have k4_v50 := (seg4_keep_v50 (after (seg3 (F := F)) (after (seg2 (F := F)) (after (seg1 (F := F)) W)))).trans f3_v50
  have k4_arg5 := (seg4_keep_arg5 (after (seg3 (F := F)) (after (seg2 (F := F)) (after (seg1 (F := F)) W)))).trans k3_arg5
  have f5_v63 := seg5_v63 (after (seg4 (F := F)) (after (seg3 (F := F)) (after (seg2 (F := F)) (after (seg1 (F := F)) W)))) x1 f4_v53
  have k5_v52 := (seg5_keep_v52 (after (seg4 (F := F)) (after (seg3 (F := F)) (after (seg2 (F := F)) (after (seg1 (F := F)) W))))).trans f4_v52
  have k5_v53 := (seg5_keep_v53 (after (seg4 (F := F)) (after (seg3 (F := F)) (after (seg2 (F := F)) (after (seg1 (F := F)) W))))).trans f4_v53
  have k5_v50 := (seg5_keep_v50 (after (seg4 (F := F)) (after (seg3 (F := F)) (after (seg2 (F := F)) (after (seg1 (F := F)) W))))).trans k4_v50
  have k5_arg5 := (seg5_keep_arg5 (after (seg4 (F := F)) (after (seg3 (F := F)) (after (seg2 (F := F)) (after (seg1 (F := F)) W))))).trans k4_arg5
  have f6_v78 := seg6_v78 (after (seg5 (F := F)) (after (seg4 (F := F)) (after (seg3 (F := F)) (after (seg2 (F := F)) (after (seg1 (F := F)) W))))) x1 f5_v63 k5_v52 k5_v53
  have k6_v52 := (seg6_keep_v52 (after (seg5 (F := F)) (after (seg4 (F := F)) (after (seg3 (F := F)) (after (seg2 (F := F)) (after (seg1 (F := F)) W)))))).trans k5_v52
  have k6_v50 := (seg6_keep_v50 (after (seg5 (F := F)) (after (seg4 (F := F)) (after (seg3 (F := F)) (after (seg2 (F := F)) (after (seg1 (F := F)) W)))))).trans k5_v50
  have k6_v53 := (seg6_keep_v53 (after (seg5 (F := F)) (after (seg4 (F := F)) (after (seg3 (F := F)) (after (seg2 (F := F)) (after (seg1 (F := F)) W)))))).trans k5_v53
  have k6_arg5 := (seg6_keep_arg5 (after (seg5 (F := F)) (after (seg4 (F := F)) (after (seg3 (F := F)) (after (seg2 (F := F)) (after (seg1 (F := F)) W)))))).trans k5_arg5
  have f7_v94 := seg7_v94 (after (seg6 (F := F)) (after (seg5 (F := F)) (after (seg4 (F := F)) (after (seg3 (F := F)) (after (seg2 (F := F)) (after (seg1 (F := F)) W)))))) x0 x1 x2 x3 x4 x5 k6_v53 k6_v50 k6_v52 f6_v78 k6_arg5
  have f8_call3_v0 := seg8_call3_v0 (after (seg7 (F := F)) (after (seg6 (F := F)) (after (seg5 (F := F)) (after (seg4 (F := F)) (after (seg3 (F := F)) (after (seg2 (F := F)) (after (seg1 (F := F)) W))))))) x0 x1 x2 x3 x4 x5 f7_v94
  have k8_v94 := (seg8_keep_v94 (after (seg7 (F := F)) (after (seg6 (F := F)) (after (seg5 (F := F)) (after (seg4 (F := F)) (after (seg3 (F := F)) (after (seg2 (F := F)) (after (seg1 (F := F)) W)))))))).trans f7_v94
  have f9_call3_v5 := seg9_call3_v5 (after (seg8 (F := F)) (after (seg7 (F := F)) (after (seg6 (F := F)) (after (seg5 (F := F)) (after (seg4 (F := F)) (after (seg3 (F := F)) (after (seg2 (F := F)) (after (seg1 (F := F)) W)))))))) x0 x1 x2 x3 x4 x5 k8_v94 f8_call3_v0
  exact seg10_v95 (after (seg9 (F := F)) (after (seg8 (F := F)) (after (seg7 (F := F)) (after (seg6 (F := F)) (after (seg5 (F := F)) (after (seg4 (F := F)) (after (seg3 (F := F)) (after (seg2 (F := F)) (after (seg1 (F := F)) W))))))))) x0 x1 x2 x3 x4 x5 f9_call3_v5

/-- The program's list of operations is the stretches in order. -/
theorem ops_eq : Cert.ReferenceIdeal.ValueP.ops (F := F)
    = seg1 ++ (seg2 ++ (seg3 ++ (seg4 ++ (seg5 ++ (seg6 ++ (seg7 ++ (seg8 ++ (seg9 ++ seg10)))))))) := rfl

/-- What the result's buffer holds after the program's operations, from the launch contents: the last stage's value at the
    arguments' launch contents. -/
theorem ref_result (m : (ℓ : Loc nD τ sig) → Buf (Elt F) ℓ) (c : Dev nD) :
    StableHlo.after (Cert.ReferenceIdeal.ValueP.ops (F := F)) (StableHlo.launchContents m c) (Proc.devRef .tc main_v95)
      = Cert.ReferenceIdeal.ReadP.val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_eq]
  simp only [Cert.Lib.AfterAppend.after_append]
  exact chain (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    rfl rfl rfl rfl rfl rfl

end Cert.ReferenceIdeal.Hand

end
-- ==== Proof.lean ====
/-
  A two-layer graph convolution on 50000 nodes and 800000 edges (plus a self-loop per node),
      out = log_softmax( Â · relu( Â · (x W1) + b1 ) W2 + b2 ),   Â[d, s] = Σ_{edges s→d} dinv[s] · dinv[d],
  computed two ways: by a program that runs the three dense stages — x @ W1, relu(· + b1) @ W2, log_softmax(· + b2) — as
  pallas_calls over ten blocks of 5000 rows each, with the aggregation Â· (gather at the sources, weigh, scatter-add at
  the targets) as host operations between them; and by a plain host program.

  Read on the extended reals the two agree entry by entry, with no condition on the inputs: a change of float format is
  the identity, a block's matrix product into a zero accumulator and the host's product are the same sum over the
  contracted axis, and a row's maximum and sum of exponentials do not depend on how the rows are cut into blocks. Each
  dense stage depends on ONE row of its first operand, so what the ten grid points write back is the whole-array stage
  (Spec.lean, Region0–2.lean, Payloads.lean); the host operations between the stages are the reference's own, operation
  for operation (HostPrefix.lean, HostStretches.lean); so the kernel's result array ends at the reference's last
  stage of the launch contents (KernelValue.lean), which is also what the reference's run leaves (RefValue.lean,
  RefStages.lean). The ideal pass rewrote no operation, so the idealized kernel is the kernel's own text.

  The three frames: the two kernels' are the generated frame certificates; the reference's is its run with the result
  dropped.
-/
import proofs.«117805_j21320217657891_1_alg».proof.Defs
import proofs.«117805_j21320217657891_1_alg».proof.Proof.Gen.Kernel
import proofs.«117805_j21320217657891_1_alg».proof.Proof.Gen.Kernel.Skeleton
import proofs.«117805_j21320217657891_1_alg».proof.Proof.Gen.Kernel.Launch
import proofs.«117805_j21320217657891_1_alg».proof.Proof.Gen.Kernel.Points
import proofs.«117805_j21320217657891_1_alg».proof.Proof.Gen.Kernel.Frame
import proofs.«117805_j21320217657891_1_alg».proof.Proof.Gen.KernelIdeal
import proofs.«117805_j21320217657891_1_alg».proof.Proof.Gen.KernelIdeal.Skeleton
import proofs.«117805_j21320217657891_1_alg».proof.Proof.Gen.KernelIdeal.Launch
import proofs.«117805_j21320217657891_1_alg».proof.Proof.Gen.KernelIdeal.Points
import proofs.«117805_j21320217657891_1_alg».proof.Proof.Gen.KernelIdeal.Frame
import proofs.«117805_j21320217657891_1_alg».proof.Proof.Gen.ReferenceIdeal
import proofs.«117805_j21320217657891_1_alg».proof.Proof.Gen.Pre_finite_inputs
import proofs.«117805_j21320217657891_1_alg».proof.Proof.KRun
import proofs.«117805_j21320217657891_1_alg».proof.Proof.KernelValue
import proofs.«117805_j21320217657891_1_alg».proof.Proof.RefRun
import proofs.«117805_j21320217657891_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: there is nothing to preserve. -/
theorem preserves : Cert.preserves_Kernel_KernelIdeal := trivial

/-- Both programs end with the result array at the reference's last stage — log_softmax of the twice aggregated,
    twice transformed features — of argument arrays that agree. -/
theorem algebraic : Cert.algebraic_KernelIdeal_ReferenceIdeal := by
  intro m ρ m' ρ' _ hagree
  refine ⟨fun c => Cert.ReferenceIdeal.ReadP.val_main_v95 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.W8_v62 m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Hand.ref_result (F := Ideal) m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
